-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x32x32 : Shape := ⟨4, ![8, 2048, 32, 32]⟩
abbrev S256x2048x1x1 : Shape := ⟨4, ![256, 2048, 1, 1]⟩
abbrev S256 : Shape := ⟨1, ![256]⟩
abbrev S_ : Shape := ⟨0, ![]⟩

class Facts : Prop where
  bcast_S_S8x2048x32x32 : S_.BroadcastsInDim S8x2048x32x32 (![] : Fin 0 → Fin S8x2048x32x32.rank)
  reducesTo_S8x2048x32x32_S_d0_1_2_3 : S8x2048x32x32.ReducesTo [0, 1, 2, 3] S_
  h_S_ : 0 < S_.numel
  bcast_S_S256x2048x1x1 : S_.BroadcastsInDim S256x2048x1x1 (![] : Fin 0 → Fin S256x2048x1x1.rank)
  reducesTo_S256x2048x1x1_S_d0_1_2_3 : S256x2048x1x1.ReducesTo [0, 1, 2, 3] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S8x2048x32x32 .f32) (main_arg1 : FVec F S256x2048x1x1 .f32) (main_arg2 : FVec F S256 .f32) (main_arg3 : FVec F S256 .f32) (main_arg4 : FVec F S256 .f32) (main_arg5 : FVec F S256 .f32) : IVec S_ 1 :=
  let main_v0 : FVec F S8x2048x32x32 .f32 := Host.absf main_arg0
  let main_cst : FVec F S_ .f32 := constant S_ .f32 0x7F800000#32
  let main_v1 : FVec F S8x2048x32x32 .f32 := broadcastInDim S8x2048x32x32 ![] bcast_S_S8x2048x32x32 main_cst
  let main_v2 : IVec S8x2048x32x32 1 := cmpf .olt main_v0 main_v1
  let main_c : IVec S_ 1 := constantI S_ 1 1#1
  let main_v3 : IVec S_ 1 := (fun x v => Host.reduce IntOp.andi x v reducesTo_S8x2048x32x32_S_d0_1_2_3 h_S_) main_v2 main_c
  let main_v4 : FVec F S256x2048x1x1 .f32 := Host.absf main_arg1
  let main_cst_0 : FVec F S_ .f32 := constant S_ .f32 0x7F800000#32
  let main_v5 : FVec F S256x2048x1x1 .f32 := broadcastInDim S256x2048x1x1 ![] bcast_S_S256x2048x1x1 main_cst_0
  let main_v6 : IVec S256x2048x1x1 1 := cmpf .olt main_v4 main_v5
  let main_c_1 : IVec S_ 1 := constantI S_ 1 1#1
  let main_v7 : IVec S_ 1 := (fun x v => Host.reduce IntOp.andi x v reducesTo_S256x2048x1x1_S_d0_1_2_3 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S8x2048x32x32 : Shape := ⟨4, ![8, 2048, 32, 32]⟩
abbrev S256x2048x1x1 : Shape := ⟨4, ![256, 2048, 1, 1]⟩
abbrev S256 : Shape := ⟨1, ![256]⟩
abbrev S_ : Shape := ⟨0, ![]⟩
abbrev S256x2048 : Shape := ⟨2, ![256, 2048]⟩
abbrev S256x1 : Shape := ⟨2, ![256, 1]⟩
abbrev S1x256 : Shape := ⟨2, ![1, 256]⟩
abbrev S8x32x32x2048 : Shape := ⟨4, ![8, 32, 32, 2048]⟩
abbrev S8x32x32x256 : Shape := ⟨4, ![8, 32, 32, 256]⟩
abbrev S1x32x32x2048 : Shape := ⟨4, ![1, 32, 32, 2048]⟩
abbrev S1x32x32x256 : Shape := ⟨4, ![1, 32, 32, 256]⟩
abbrev S1x2048 : Shape := ⟨2, ![1, 2048]⟩
abbrev S1x1x1x256 : Shape := ⟨4, ![1, 1, 1, 256]⟩
abbrev S8x256x32x32 : Shape := ⟨4, ![8, 256, 32, 32]⟩

abbrev nBuf : Space → Nat
  | .hbm => 24
  | .vmem => 6
  | .smem => 0
  | _ => 0

abbrev bufTy : (tb : Table) → Fin (tcTables nBuf tb) → BufTy
  | .hbm, ⟨0, _⟩ => ⟨S8x2048x32x32, .f32⟩
  | .hbm, ⟨1, _⟩ => ⟨S256x2048x1x1, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S_, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256x2048, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x2048, .f32⟩
  | .hbm, ⟨17, _⟩ => ⟨S256x2048, .f32⟩
  | .hbm, ⟨18, _⟩ => ⟨S256, .f32⟩
  | .hbm, ⟨19, _⟩ => ⟨S256, .f32⟩
  | .hbm, ⟨20, _⟩ => ⟨S1x256, .f32⟩
  | .hbm, ⟨21, _⟩ => ⟨S8x32x32x2048, .f32⟩
  | .hbm, ⟨22, _⟩ => ⟨S8x32x32x256, .f32⟩
  | .hbm, ⟨23, _⟩ => ⟨S8x256x32x32, .f32⟩
  | .local _ .vmem, ⟨0, _⟩ => ⟨S1x32x32x2048, .f32⟩
  | .local _ .vmem, ⟨1, _⟩ => ⟨S1x32x32x2048, .f32⟩
  | .local _ .vmem, ⟨2, _⟩ => ⟨S256x2048, .f32⟩
  | .local _ .vmem, ⟨3, _⟩ => ⟨S1x256, .f32⟩
  | .local _ .vmem, ⟨4, _⟩ => ⟨S1x32x32x256, .f32⟩
  | .local _ .vmem, ⟨5, _⟩ => ⟨S1x32x32x256, .f32⟩
  | _, _ => ⟨S8x2048x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x32x32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S256 : S_.BroadcastsInDim S256 (![] : Fin 0 → Fin S256.rank)
  shapeCasts_S256x2048x1x1_S256x2048 : S256x2048x1x1.ShapeCasts S256x2048
  bcast_S256_S256x1_0 : S256.BroadcastsInDim S256x1 (![0] : Fin 1 → Fin S256x1.rank)
  bcast_S_S256x1 : S_.BroadcastsInDim S256x1 (![] : Fin 0 → Fin S256x1.rank)
  bcast_S256x1_S256x2048_0_1 : S256x1.BroadcastsInDim S256x2048 (![0, 1] : Fin 2 → Fin S256x2048.rank)
  shapeCasts_S256_S1x256 : S256.ShapeCasts S1x256
  transposes_S8x2048x32x32_S8x32x32x2048_0_2_3_1 : S8x2048x32x32.Transposes [0, 2, 3, 1] S8x32x32x2048
  inb_S1x32x32x2048_S1x32x32x2048_0_0_0_0 : ∀ a, (![0, 0, 0, 0] : Fin 4 → Nat) a + S1x32x32x2048.size a ≤ S1x32x32x2048.size a
  h_S1x32x32x2048 : 0 < S1x32x32x2048.numel
  shapeCasts_S1x32x32x2048_S1x32x32x2048 : S1x32x32x2048.ShapeCasts S1x32x32x2048
  reduces_S1x32x32x2048_S1x2048 : S1x32x32x2048.Reduces [1, 2] S1x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x256_S1x1x1x256 : S1x256.ShapeCasts S1x1x1x256
  shapeCasts_S1x1x1x256_S1x1x1x256 : S1x1x1x256.ShapeCasts S1x1x1x256
  broadcasts_S1x1x1x256_S1x32x32x256 : S1x1x1x256.Broadcasts S1x32x32x256
  inb_S1x32x32x256_S1x32x32x256_0_0_0_0 : ∀ a, (![0, 0, 0, 0] : Fin 4 → Nat) a + S1x32x32x256.size a ≤ S1x32x32x256.size a
  h_S1x32x32x256 : 0 < S1x32x32x256.numel
  transposes_S8x32x32x256_S8x256x32x32_0_3_1_2 : S8x32x32x256.Transposes [0, 3, 1, 2] S8x256x32x32
  dot_S1x2048_S256x2048_S1x256_1_1_0_0_n_n_wf : DotDims.WF S1x2048 S256x2048 S1x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x32x2048.size a ≤ S8x32x32x2048.size a
  hwx0_0 : ∀ i : grid0.Coords, EltTy.bits .f32 = 32 ∨ (Rect.block (s := S8x32x32x2048) S1x32x32x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S256x2048.size a
  hwx0_1 : ∀ i : grid0.Coords, EltTy.bits .f32 = 32 ∨ (Rect.block (s := S256x2048) S256x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x32x256.size a ≤ S8x32x32x256.size a
  hwx0_3 : ∀ i : grid0.Coords, EltTy.bits .f32 = 32 ∨ (Rect.block (s := S8x32x32x256) S1x32x32x256.size (cc0_transform_3 i) (hinb0_3 i)).WholeWords (EltTy.packing .f32)

variable [Facts₀]

def dot_S1x2048_S256x2048_S1x256_1_1_0_0_n_n : DotDims S1x2048 S256x2048 S1x256 where
  lhsContracting := [1]
  rhsContracting := [1]
  lhsNonContracting := [0]
  rhsNonContracting := [0]
  lhsBatch := []
  rhsBatch := []
  wf := dot_S1x2048_S256x2048_S1x256_1_1_0_0_n_n_wf

abbrev win0_0 : Pipeline.Window sig grid0 :=
  Pipeline.Window.ofSpec (Memref.whole main_v13) S1x32x32x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S256x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x32x32x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x32x32 : Shape := ⟨4, ![8, 2048, 32, 32]⟩
abbrev S256x2048x1x1 : Shape := ⟨4, ![256, 2048, 1, 1]⟩
abbrev S256 : Shape := ⟨1, ![256]⟩
abbrev S_ : Shape := ⟨0, ![]⟩
abbrev S256x2048 : Shape := ⟨2, ![256, 2048]⟩
abbrev S256x1 : Shape := ⟨2, ![256, 1]⟩
abbrev S2048x256 : Shape := ⟨2, ![2048, 256]⟩
abbrev S1x256 : Shape := ⟨2, ![1, 256]⟩
abbrev S8x2048x1024 : Shape := ⟨3, ![8, 2048, 1024]⟩
abbrev S8x2048 : Shape := ⟨2, ![8, 2048]⟩
abbrev S8x256x512 : Shape := ⟨3, ![8, 256, 512]⟩
abbrev S8x256 : Shape := ⟨2, ![8, 256]⟩
abbrev S8x256x1024 : Shape := ⟨3, ![8, 256, 1024]⟩
abbrev S8x256x1 : Shape := ⟨3, ![8, 256, 1]⟩
abbrev S8x256x32x32 : Shape := ⟨4, ![8, 256, 32, 32]⟩

abbrev nBuf : Space → Nat
  | .hbm => 26
  | .vmem => 9
  | .smem => 0
  | _ => 0

abbrev bufTy : (tb : Table) → Fin (tcTables nBuf tb) → BufTy
  | .hbm, ⟨0, _⟩ => ⟨S8x2048x32x32, .f32⟩
  | .hbm, ⟨1, _⟩ => ⟨S256x2048x1x1, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S_, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256x2048, .f32⟩
  | .hbm, ⟨12, _⟩ => ⟨S256x1, .f32⟩
  | .hbm, ⟨13, _⟩ => ⟨S256x2048, .f32⟩
  | .hbm, ⟨14, _⟩ => ⟨S256x2048, .f32⟩
  | .hbm, ⟨15, _⟩ => ⟨S_, .f32⟩
  | .hbm, ⟨16, _⟩ => ⟨S256x2048, .f32⟩
  | .hbm, ⟨17, _⟩ => ⟨S256x2048, .f32⟩
  | .hbm, ⟨18, _⟩ => ⟨S2048x256, .f32⟩
  | .hbm, ⟨19, _⟩ => ⟨S256, .f32⟩
  | .hbm, ⟨20, _⟩ => ⟨S256, .f32⟩
  | .hbm, ⟨21, _⟩ => ⟨S1x256, .f32⟩
  | .hbm, ⟨22, _⟩ => ⟨S8x2048x1024, .f32⟩
  | .hbm, ⟨23, _⟩ => ⟨S8x2048, .f32⟩
  | .hbm, ⟨24, _⟩ => ⟨S8x256x1024, .f32⟩
  | .hbm, ⟨25, _⟩ => ⟨S8x256x32x32, .f32⟩
  | .local _ .vmem, ⟨0, _⟩ => ⟨S8x256x512, .f32⟩
  | .local _ .vmem, ⟨1, _⟩ => ⟨S8x256x512, .f32⟩
  | .local _ .vmem, ⟨2, _⟩ => ⟨S8x256, .f32⟩
  | .local _ .vmem, ⟨3, _⟩ => ⟨S8x256, .f32⟩
  | .local _ .vmem, ⟨4, _⟩ => ⟨S8x2048, .f32⟩
  | .local _ .vmem, ⟨5, _⟩ => ⟨S2048x256, .f32⟩
  | .local _ .vmem, ⟨6, _⟩ => ⟨S1x256, .f32⟩
  | .local _ .vmem, ⟨7, _⟩ => ⟨S8x256x512, .f32⟩
  | .local _ .vmem, ⟨8, _⟩ => ⟨S8x256x512, .f32⟩
  | _, _ => ⟨S8x2048x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem3_1 : DmaSem sig := 8

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage1_0 : Fin 1 → Memref sig .tc .vmem S8x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2048x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8x256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S256 : S_.BroadcastsInDim S256 (![] : Fin 0 → Fin S256.rank)
  shapeCasts_S256x2048x1x1_S256x2048 : S256x2048x1x1.ShapeCasts S256x2048
  bcast_S256_S256x1_0 : S256.BroadcastsInDim S256x1 (![0] : Fin 1 → Fin S256x1.rank)
  bcast_S256x1_S256x2048_0_1 : S256x1.BroadcastsInDim S256x2048 (![0, 1] : Fin 2 → Fin S256x2048.rank)
  bcast_S_S256x2048 : S_.BroadcastsInDim S256x2048 (![] : Fin 0 → Fin S256x2048.rank)
  transposes_S256x2048_S2048x256_1_0 : S256x2048.Transposes [1, 0] S2048x256
  shapeCasts_S256_S1x256 : S256.ShapeCasts S1x256
  shapeCasts_S8x2048x32x32_S8x2048x1024 : S8x2048x32x32.ShapeCasts S8x2048x1024
  inb_S8x256_S8x256_0_0 : ∀ a, (![0, 0] : Fin 2 → Nat) a + S8x256.size a ≤ S8x256.size a
  h_S8x256 : 0 < S8x256.numel
  inb_S8x256x512_S8x256x512_0_0_0 : ∀ a, (![0, 0, 0] : Fin 3 → Nat) a + S8x256x512.size a ≤ S8x256x512.size a
  h_S8x256x512 : 0 < S8x256x512.numel
  shapeCasts_S8x256x512_S8x256x512 : S8x256x512.ShapeCasts S8x256x512
  shapeCasts_S8x256_S8x256 : S8x256.ShapeCasts S8x256
  reduces_S8x256x512_S8x256 : S8x256x512.Reduces [2] S8x256
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8x256 : S1x256.Broadcasts S8x256
  shapeCasts_S8x256_S8x256x1 : S8x256.ShapeCasts S8x256x1
  shapeCasts_S8x256x1_S8x256x1 : S8x256x1.ShapeCasts S8x256x1
  broadcasts_S8x256x1_S8x256x512 : S8x256x1.Broadcasts S8x256x512
  shapeCasts_S8x256x1024_S8x256x32x32 : S8x256x1024.ShapeCasts S8x256x32x32
  dot_S8x2048_S2048x256_S8x256_1_0_0_1_n_n_wf : DotDims.WF S8x2048 S2048x256 S8x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x512.size a ≤ S8x2048x1024.size a
  hwx0_0 : ∀ i : grid0.Coords, EltTy.bits .f32 = 32 ∨ (Rect.block (s := S8x2048x1024) S8x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S8x2048.size a
  hwx0_1 : ∀ i : grid0.Coords, EltTy.bits .f32 = 32 ∨ (Rect.block (s := S8x2048) S8x256.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8x2048.size a ≤ S8x2048.size a
  hwx1_0 : ∀ i : grid1.Coords, EltTy.bits .f32 = 32 ∨ (Rect.block (s := S8x2048) S8x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S2048x256.size a
  hwx1_1 : ∀ i : grid1.Coords, EltTy.bits .f32 = 32 ∨ (Rect.block (s := S2048x256) S2048x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x256x512.size a ≤ S8x256x1024.size a
  hwx1_3 : ∀ i : grid1.Coords, EltTy.bits .f32 = 32 ∨ (Rect.block (s := S8x256x1024) S8x256x512.size (cc1_transform_3 i) (hinb1_3 i)).WholeWords (EltTy.packing .f32)

variable [Facts₀]

def dot_S8x2048_S2048x256_S8x256_1_0_0_1_n_n : DotDims S8x2048 S2048x256 S8x256 where
  lhsContracting := [1]
  rhsContracting := [0]
  lhsNonContracting := [0]
  rhsNonContracting := [1]
  lhsBatch := []
  rhsBatch := []
  wf := dot_S8x2048_S2048x256_S8x256_1_0_0_1_n_n_wf

abbrev win0_0 : Pipeline.Window sig grid0 :=
  Pipeline.Window.ofSpec (Memref.whole main_v14) S8x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S8x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v15) S8x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v10) S2048x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S8x256x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.LibSumSplit.lean ====
/-
  A 266-term sum, read as its three consecutive stretches: terms 0..127, 128..255 and 256..265.
  This holds in every commutative additive monoid (only associativity of the ordered sum is used).
-/
import Mathlib

namespace Cert.LibSumSplit

open Finset

/-- A sum over `Fin (m + n)` is the sum of its first `m` terms plus the sum of its last `n` terms,
    with the indices written out as natural numbers below the bound. -/
theorem sum_fin_add {M : Type*} [AddCommMonoid M] (m n : ℕ) (f : Fin (m + n) → M) :
    ∑ k : Fin (m + n), f k
      = ∑ k : Fin m, f ⟨k.val, by omega⟩ + ∑ k : Fin n, f ⟨m + k.val, by omega⟩ := by
  rw [Fin.sum_univ_add]
  rfl

/-- A 266-term sum is the sum of its terms 0..127, plus the sum of its terms 128..255, plus the sum
    of its terms 256..265. -/
theorem sum_fin_266 {M : Type*} [AddCommMonoid M] (f : Fin 266 → M) :
    ∑ k : Fin 266, f k
      = (∑ k : Fin 128, f ⟨k.val, by omega⟩ + ∑ k : Fin 128, f ⟨128 + k.val, by omega⟩)
        + ∑ k : Fin 10, f ⟨256 + k.val, by omega⟩ := by
  have h1 := sum_fin_add (M := M) 256 10 f
  have h2 := sum_fin_add (M := M) 128 128 (fun k : Fin (128 + 128) => f ⟨k.val, by omega⟩)
  rw [h1]
  congr 1
-- ==== Proof.PoolSpec.lean ====
/-
  The pooling branch as mathematics, over the extended reals.  For an input x[n, ci, a, b] (8 × 2048 × 32 × 32), a
  1×1 convolution weight w[co, ci], and batch-norm parameters γ, β, μ, σ² (256 each):
    s(co)      = γ(co) · (σ²(co) + ε)^(-1/2)                          the batch-norm scale
    pooled(n, ci) = Σ_a Σ_b x(n, ci, a, b)                             the spatial sum
    out(n, co, ·, ·) = max( Σ_ci pooled(n, ci) · W(co, ci) + (β(co) − μ(co) · s(co)), 0 )
  where the folded weight W(co, ci) is w(co, ci) · (s(co) / 1024) in one program and (w(co, ci) · s(co)) / 1024 in the
  other.  The two groupings agree on every extended real because 1024 is a nonzero real: dividing by it is multiplying
  by its inverse, and multiplication is associative.  The spatial sum taken over the 1024 flattened positions q, read
  at (q / 32, q % 32), in two halves of 512 starting from zero, is the same double sum.
-/
import Mathlib
import Idealize.ShloMosaic.PureOps.Ideal
import Idealize.ShloMosaic.PureOps.Ideal.Laws
import Idealize.ShloMosaic.Lib.ValueIdx
import proofs.«160035_g2000207088411349_pallasbulk_988_20_alg».proof.Proof.LibSumSplit

noncomputable section

open scoped BigOperators

namespace Cert.PoolSpec

open Idealize.ShloMosaic Idealize.ShloMosaic.ValueIdx

abbrev SX : Shape := ⟨4, ![8, 2048, 32, 32]⟩
abbrev SW : Shape := ⟨4, ![256, 2048, 1, 1]⟩
abbrev SC : Shape := ⟨1, ![256]⟩
abbrev SO : Shape := ⟨4, ![8, 256, 32, 32]⟩

/-- The divisor H·W = 1024 as the programs spell it. -/
abbrev hw : EReal := Ideal.ofBits .f32 0x44800000#32

/-- The pattern denotes the real number 1024. -/
theorem hw_eq : hw = ((1024 : ℝ) : EReal) := by
  simp [hw, Ideal.ofBits, Ideal.ieee, -EReal.coe_mul]; norm_num

theorem hw_ne_zero : hw ≠ 0 := by
  rw [hw_eq]; exact_mod_cast (by norm_num : (1024 : ℝ) ≠ 0)

/-- Dividing a product by 1024 is multiplying one factor by the quotient of the other: both are the triple product
    with the inverse of 1024, by associativity. -/
theorem mul_div_hw (w s : EReal) : w * Ideal.div s hw = Ideal.div (w * s) hw := by
  unfold Ideal.div
  rw [if_neg hw_ne_zero, if_neg hw_ne_zero, mul_assoc]

/-- The batch-norm scale of channel `co`. -/
def scale (g v : SC.Idx → EReal) (co : Fin 256) : EReal :=
  g (ix1 co) * Ideal.rsqrt (v (ix1 co) + Ideal.ofBits .f32 0x3727C5AC#32)

/-- The batch-norm shift of channel `co`. -/
def shift (beta mean g v : SC.Idx → EReal) (co : Fin 256) : EReal :=
  beta (ix1 co) - mean (ix1 co) * scale g v co

/-- The folded weight: the quotient taken on the scale first. -/
def weightQ (w : SW.Idx → EReal) (g v : SC.Idx → EReal) (co : Fin 256) (ci : Fin 2048) : EReal :=
  w (ix4 co ci (0 : Fin 1) (0 : Fin 1)) * Ideal.div (scale g v co) hw

/-- The folded weight: the quotient taken on the product. -/
def weightP (w : SW.Idx → EReal) (g v : SC.Idx → EReal) (co : Fin 256) (ci : Fin 2048) : EReal :=
  Ideal.div (w (ix4 co ci (0 : Fin 1) (0 : Fin 1)) * scale g v co) hw

theorem weightQ_eq_weightP (w : SW.Idx → EReal) (g v : SC.Idx → EReal) (co : Fin 256) (ci : Fin 2048) :
    weightQ w g v co ci = weightP w g v co ci :=
  mul_div_hw _ _

/-- The spatial sum of one image's one channel. -/
def pooled (x : SX.Idx → EReal) (n : Fin 8) (ci : Fin 2048) : EReal :=
  ∑ a : Fin 32, ∑ b : Fin 32, x (ix4 n ci a b)

/-- The branch's output at image `n`, channel `co` (the same at every spatial position), for a folded weight `W`. -/
def act (x : SX.Idx → EReal) (W : Fin 256 → Fin 2048 → EReal) (sh : Fin 256 → EReal) (n : Fin 8) (co : Fin 256) : EReal :=
  max ((∑ ci : Fin 2048, pooled x n ci * W co ci) + sh co) (Ideal.ofBits .f32 0x00000000#32)

/-- The output array. -/
def out (x : SX.Idx → EReal) (W : Fin 256 → Fin 2048 → EReal) (sh : Fin 256 → EReal) : SO.Idx → EReal :=
  fun j => act x W sh (j 0) (j 1)

theorem out_ix4 (x : SX.Idx → EReal) (W : Fin 256 → Fin 2048 → EReal) (sh : Fin 256 → EReal)
    (n : Fin 8) (co : Fin 256) (a b : Fin 32) : out x W sh (ix4 n co a b) = act x W sh n co := rfl

/-- A sum over the 1024 flattened positions, read at (q / 32, q % 32), is the double sum over rows and columns. -/
theorem sum_flat (F : Fin 32 → Fin 32 → EReal) :
    ∑ q : Fin 1024, F ⟨q.val / 32, by have := q.isLt; omega⟩ ⟨q.val % 32, Nat.mod_lt _ (by decide)⟩
      = ∑ a : Fin 32, ∑ b : Fin 32, F a b := by
  rw [← Fintype.sum_prod_type']
  exact Fintype.sum_equiv (finProdFinEquiv (m := 32) (n := 32)).symm _ _ (fun q => rfl)

/-- The same sum taken in two halves of 512 positions, starting from zero. -/
theorem sum_halves (F : Fin 1024 → EReal) :
    (Ideal.ofBits .f32 0x00000000#32 + ∑ k : Fin 512, F ⟨k.val, by have := k.isLt; omega⟩)
        + ∑ k : Fin 512, F ⟨512 + k.val, by have := k.isLt; omega⟩
      = ∑ q : Fin 1024, F q := by
  rw [Ideal.ofBits_zero_f32, zero_add]
  exact (Cert.LibSumSplit.sum_fin_add 512 512 F).symm

/-- So the spatial sum accumulated from zero over the two halves of the flattened positions is `pooled`. -/
theorem pooled_halves (x : SX.Idx → EReal) (n : Fin 8) (ci : Fin 2048) :
    (Ideal.ofBits .f32 0x00000000#32
        + ∑ k : Fin 512, x (ix4 n ci ⟨k.val / 32, by have := k.isLt; omega⟩ ⟨k.val % 32, Nat.mod_lt _ (by decide)⟩))
      + ∑ k : Fin 512, x (ix4 n ci ⟨(512 + k.val) / 32, by have := k.isLt; omega⟩ ⟨(512 + k.val) % 32, Nat.mod_lt _ (by decide)⟩)
      = pooled x n ci := by
  have h := sum_halves (fun q : Fin 1024 =>
    x (ix4 n ci ⟨q.val / 32, by have := q.isLt; omega⟩ ⟨q.val % 32, Nat.mod_lt _ (by decide)⟩))
  exact h.trans (sum_flat fun a b => x (ix4 n ci a b))

end Cert.PoolSpec

end
-- ==== Proof.KHost.lean ====
/-
  What the host operations before the kernel's one region leave in the three arrays the region reads, entry by entry:
  the transposed input  xt(n, a, b, ci) = x(n, ci, a, b);  the folded weight  w(co, ci) · (s(co) / 1024);  the shift
  β(co) − μ(co) · s(co) as a row.  Each is the operations' composed term read at an index written by its coordinates.
-/
import proofs.«160035_g2000207088411349_pallasbulk_988_20_alg».proof.Proof.Gen.KernelIdeal.Frame
import proofs.«160035_g2000207088411349_pallasbulk_988_20_alg».proof.Proof.PoolSpec
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem
open Idealize.ShloMosaic.ValueIdx

namespace Cert.KernelIdeal.Bridge

open Cert.KernelIdeal Cert.KernelIdeal.Gen Cert.PoolSpec

variable (m : (ℓ : Loc nD τ sig) → Buf (Elt Ideal) ℓ)

/-- The six argument arrays as launched, as functions of their indices. -/
abbrev aX (c : Dev nD) : FVec Ideal S8x2048x32x32 .f32 := m ((c : Thread nD τ).loc main_arg0)
abbrev aW (c : Dev nD) : FVec Ideal S256x2048x1x1 .f32 := m ((c : Thread nD τ).loc main_arg1)
abbrev aG (c : Dev nD) : FVec Ideal S256 .f32 := m ((c : Thread nD τ).loc main_arg2)
abbrev aB (c : Dev nD) : FVec Ideal S256 .f32 := m ((c : Thread nD τ).loc main_arg3)
abbrev aM (c : Dev nD) : FVec Ideal S256 .f32 := m ((c : Thread nD τ).loc main_arg4)
abbrev aV (c : Dev nD) : FVec Ideal S256 .f32 := m ((c : Thread nD τ).loc main_arg5)

/-- The scale vector the host computes: γ · rsqrt(σ² + ε). -/
abbrev sArr (c : Dev nD) : FVec Ideal S256 .f32 :=
  mulf (aG m c) (Host.rsqrt (addf (aV m c) (broadcastInDim S256 ![] bcast_S_S256 (constant S_ .f32 0x3727C5AC#32))))

theorem sArr_apply (c : Dev nD) (co : Fin 256) : sArr m c (ix1 co) = scale (aG m c) (aV m c) co := by
  show aG m c (ix1 co) * Ideal.rsqrt (aV m c (ix1 co)
    + broadcastInDim S256 ![] bcast_S_S256 (constant (F := Ideal) S_ .f32 0x3727C5AC#32) (ix1 co)) = _
  rw [broadcastInDim_apply _ _ _ (ix1 co) ix0 (fun a => a.elim0)]
  rfl

/-- The transposed input. -/
theorem V_v13 (c : Dev nD) : (V m c main_v13 : S8x32x32x2048.Idx → EReal)
    = transpose S8x32x32x2048 [0, 2, 3, 1] (aX m c) transposes_S8x2048x32x32_S8x32x32x2048_0_2_3_1 := by
  show StableHlo.after hostOps0 (fun b => m (c, b)) (Proc.devRef .tc main_v13) = _
  after_results

theorem V_v13_apply (c : Dev nD) (n : Fin 8) (a b : Fin 32) (ci : Fin 2048) :
    (V m c main_v13 : S8x32x32x2048.Idx → EReal) (ix4 n a b ci) = aX m c (ix4 n ci a b) :=
  (congrFun (V_v13 m c) _).trans
    (transpose_apply _ _ _ _ _ fun d => match d with | ⟨0, _⟩ => rfl | ⟨1, _⟩ => rfl | ⟨2, _⟩ => rfl | ⟨3, _⟩ => rfl)

/-- The shift row. -/
theorem V_v12 (c : Dev nD) : (V m c main_v12 : S1x256.Idx → EReal)
    = shapeCast S1x256 (subf (aB m c) (mulf (aM m c) (sArr m c))) shapeCasts_S256_S1x256 := by
  show StableHlo.after hostOps0 (fun b => m (c, b)) (Proc.devRef .tc main_v12) = _
  after_results
  rfl

theorem V_v12_apply (c : Dev nD) (u : Fin 1) (co : Fin 256) :
    (V m c main_v12 : S1x256.Idx → EReal) (ix2 u co) = shift (aB m c) (aM m c) (aG m c) (aV m c) co := by
  refine (congrFun (V_v12 m c) _).trans ?_
  refine (shapeCast_a_1a_apply _ _ u co).trans ?_
  show aB m c (ix1 co) - aM m c (ix1 co) * sArr m c (ix1 co) = _
  rw [sArr_apply]
  rfl

/-- The folded weight. -/
theorem V_v9 (c : Dev nD) : (V m c main_v9 : S256x2048.Idx → EReal)
    = mulf (shapeCast S256x2048 (aW m c) shapeCasts_S256x2048x1x1_S256x2048)
        (broadcastInDim S256x2048 ![0, 1] bcast_S256x1_S256x2048_0_1
          (Host.divf (broadcastInDim S256x1 ![0] bcast_S256_S256x1_0 (sArr m c))
            (broadcastInDim S256x1 ![] bcast_S_S256x1 (constant S_ .f32 0x44800000#32)))) := by
  show StableHlo.after hostOps0 (fun b => m (c, b)) (Proc.devRef .tc main_v9) = _
  after_results
  rfl

theorem V_v9_apply (c : Dev nD) (co : Fin 256) (ci : Fin 2048) :
    (V m c main_v9 : S256x2048.Idx → EReal) (ix2 co ci) = weightQ (aW m c) (aG m c) (aV m c) co ci := by
  refine (congrFun (V_v9 m c) _).trans ?_
  show shapeCast S256x2048 (aW m c) shapeCasts_S256x2048x1x1_S256x2048 (ix2 co ci)
      * broadcastInDim S256x2048 ![0, 1] bcast_S256x1_S256x2048_0_1
          (Host.divf (broadcastInDim S256x1 ![0] bcast_S256_S256x1_0 (sArr m c))
            (broadcastInDim S256x1 ![] bcast_S_S256x1 (constant (F := Ideal) S_ .f32 0x44800000#32))) (ix2 co ci) = _
  rw [shapeCast_apply (aW m c) _ (ix2 co ci) (ix4 co ci (0 : Fin 1) (0 : Fin 1)) (by
      rw [Shape.rowMajor_val_four, Shape.rowMajor_val_two]
      show ((co.val * 2048 + ci.val) * 1 + 0) * 1 + 0 = co.val * 2048 + ci.val
      omega),
    broadcastInDim_apply _ _ _ (ix2 co ci) (ix2 co (0 : Fin 1)) (fun a => match a with | ⟨0, _⟩ => rfl | ⟨1, _⟩ => rfl)]
  show _ * Ideal.div (broadcastInDim S256x1 ![0] bcast_S256_S256x1_0 (sArr m c) (ix2 co (0 : Fin 1)))
      (broadcastInDim S256x1 ![] bcast_S_S256x1 (constant (F := Ideal) S_ .f32 0x44800000#32) (ix2 co (0 : Fin 1))) = _
  rw [broadcastInDim_apply _ _ _ (ix2 co (0 : Fin 1)) (ix1 co) (fun a => match a with | ⟨0, _⟩ => rfl),
    broadcastInDim_apply _ _ _ (ix2 co (0 : Fin 1)) ix0 (fun a => a.elim0), sArr_apply]
  rfl

end Cert.KernelIdeal.Bridge

end
-- ==== Proof.LibTransposedDot.lean ====
/-
  A matrix product whose right operand is contracted on its LAST axis, M×K by N×K (the left operand times the transpose
  of the right), at the ideal values, read at an index as the sum over the contracted coordinate of the products of the
  operands' entries: (x · wᵀ)(r, c) = Σ_k x(r, k) · w(c, k) — for the vector unit's matmul into the zero accumulator and
  for the host's dot_general alike. The contraction has one axis, of extent K: its index is that one coordinate; the left
  operand's index at (r, c) and k is (r, k), the right operand's is (c, k).
-/
import Idealize.ShloMosaic.PureOps.Ideal.Laws
import Idealize.ShloMosaic.Lib.ValueIdx

noncomputable section

open scoped BigOperators

namespace Idealize.ShloMosaic.TransposedDot

open Idealize.ShloMosaic Idealize.ShloMosaic.ValueIdx

variable {M K N : Nat}

/-- The one-axis contraction index of the product is its coordinate. -/
def contrE (M K N : Nat) : (DotDims.transposedRhs M K N).contr.Idx ≃ Fin K :=
  contrEquiv1 (DotDims.transposedRhs M K N) K rfl rfl

theorem contrE_symm_val (k : Fin K) :
    ((contrE M K N).symm k ⟨0, by have h : (DotDims.transposedRhs M K N).contr.rank = 1 := rfl; omega⟩ : ℕ) = k.val :=
  contrEquiv1_symm_val (DotDims.transposedRhs M K N) K rfl rfl k

/-- The left operand is read at (row of the result, contracted coordinate). -/
theorem lhsIdx_eq (r : Fin M) (c : Fin N) (k : Fin K) :
    (DotDims.transposedRhs M K N).lhsIdx (ix2 r c) ((contrE M K N).symm k) = ix2 r k := by
  funext a
  apply Fin.ext
  match a with
  | ⟨0, _⟩ => rfl
  | ⟨1, _⟩ => exact ((DotDims.transposedRhs M K N).lhsIdx_val_of_single (cl := 1) rfl (ix2 r c) _).trans (contrE_symm_val k)

/-- The right operand is read at (column of the result, contracted coordinate). -/
theorem rhsIdx_eq (r : Fin M) (c : Fin N) (k : Fin K) :
    (DotDims.transposedRhs M K N).rhsIdx (ix2 r c) ((contrE M K N).symm k) = ix2 c k := by
  funext a
  apply Fin.ext
  match a with
  | ⟨0, _⟩ => rfl
  | ⟨1, _⟩ => exact ((DotDims.transposedRhs M K N).rhsIdx_val_of_single (cr := 1) rfl (ix2 r c) _).trans (contrE_symm_val k)

/-- The sum over the contraction index, re-indexed by the contracted coordinate. -/
theorem sum_contr (f : (⟨2, ![M, K]⟩ : Shape).Idx → EReal) (g : (⟨2, ![N, K]⟩ : Shape).Idx → EReal) (r : Fin M) (c : Fin N) :
    (∑ k : (DotDims.transposedRhs M K N).contr.Idx,
        f ((DotDims.transposedRhs M K N).lhsIdx (ix2 r c) k) * g ((DotDims.transposedRhs M K N).rhsIdx (ix2 r c) k))
      = ∑ k : Fin K, f (ix2 r k) * g (ix2 c k) := by
  rw [← Equiv.sum_comp (contrE M K N).symm]
  exact Finset.sum_congr rfl fun k _ => by rw [lhsIdx_eq, rhsIdx_eq]

/-- The vector unit's matmul into the zero accumulator, at (r, c). -/
theorem matmul_zero_apply {φ₁ φ₂ : FTy} (prec : Option ContractPrecision)
    (x : FVec Ideal ⟨2, ![M, K]⟩ φ₁) (w : FVec Ideal ⟨2, ![N, K]⟩ φ₂) (r : Fin M) (c : Fin N) :
    FloatOps.matmul (DotDims.transposedRhs M K N) prec x w (constant (⟨2, ![M, N]⟩ : Shape) .f32 0x00000000#32) (ix2 r c)
      = ∑ k : Fin K, x (ix2 r k) * w (ix2 c k) :=
  (Ideal.matmul_constant_zero_apply (DotDims.transposedRhs M K N) prec x w (ix2 r c)).trans (sum_contr x w r c)

/-- The host's dot_general, at (r, c). -/
theorem dotGeneral_apply {φ₁ φ₂ : FTy} (prec : Option ContractPrecision) (sched : HostSchedule)
    (x : FVec Ideal ⟨2, ![M, K]⟩ φ₁) (w : FVec Ideal ⟨2, ![N, K]⟩ φ₂) (r : Fin M) (c : Fin N) :
    FloatOps.dotGeneral (DotDims.transposedRhs M K N) prec sched x w (ix2 r c) = ∑ k : Fin K, x (ix2 r k) * w (ix2 c k) :=
  (Ideal.dotGeneral_apply (DotDims.transposedRhs M K N) prec sched x w (ix2 r c)).trans (sum_contr x w r c)

end Idealize.ShloMosaic.TransposedDot

end
-- ==== Proof.KBody.lean ====
/-
  The kernel body's one store, read at an index.  At grid point n the body holds one image's transposed block
  xt(0, a, b, ci), the folded weight W(co, ci) and the shift row; it stores, at every spatial position (a, b) and
  channel co,   max( Σ_ci (Σ_a' Σ_b' xt(0, a', b', ci)) · W(co, ci) + shift(0, co), 0 ).
  The sum over the two spatial axes at once is the double sum over their coordinates: the indices that the reduction
  collects at (0, ci) are exactly the (0, a', b', ci).
-/
import proofs.«160035_g2000207088411349_pallasbulk_988_20_alg».proof.Proof.Gen.KernelIdeal.Skeleton
import proofs.«160035_g2000207088411349_pallasbulk_988_20_alg».proof.Proof.LibTransposedDot
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem
open Idealize.ShloMosaic.ValueIdx

namespace Cert.KernelIdeal.Bridge

open Cert.KernelIdeal Cert.KernelIdeal.Gen

/-- The index the two-axis reduction's result (u, ci) collects from is (u', a, b, ci') with u' = u and ci' = ci. -/
theorem drop_ix4 (u : Fin 1) (a b : Fin 32) (ci : Fin 2048) (u' : Fin 1) :
    reduces_S1x32x32x2048_S1x2048.drop (ix4 u a b ci) = ix2 u' ci := by
  funext d
  apply Fin.ext
  match d with
  | ⟨0, _⟩ =>
    have h := reduces_S1x32x32x2048_S1x2048.drop_apply_val_of_eq (ix4 u a b ci) (⟨0, by decide⟩ : Fin S1x2048.rank) (0 : Fin 4)
    have hu : u.val = 0 := by omega
    have hu' : u'.val = 0 := by omega
    show (reduces_S1x32x32x2048_S1x2048.drop (ix4 u a b ci) ⟨0, _⟩ : Nat) = u'.val
    rw [h, hu']; exact hu
  | ⟨1, _⟩ =>
    exact reduces_S1x32x32x2048_S1x2048.drop_apply_val_of_eq (ix4 u a b ci) (⟨1, by decide⟩ : Fin S1x2048.rank) (3 : Fin 4)

/-- The sum over both spatial axes of a [1, 32, 32, 2048] block, at (u, ci): the double sum over the spatial coordinates. -/
theorem sum_hw (src : FVec Ideal S1x32x32x2048 .f32) (hφ : FKind.Formats .f32)
    (hacc : (0x00000000#32 : BitVec 32) = FKind.add.neutral .f32 hφ) (u : Fin 1) (ci : Fin 2048) :
    multiReduction .add [1, 2] S1x2048 src 0x00000000#32 reduces_S1x32x32x2048_S1x2048 hφ hacc (ix2 u ci)
      = ∑ a : Fin 32, ∑ b : Fin 32, src (ix4 (0 : Fin 1) a b ci) := by
  refine Eq.trans (show _ = ∑ i ∈ Finset.univ.filter (fun i => reduces_S1x32x32x2048_S1x2048.drop i = ix2 u ci), src i from rfl) ?_
  rw [← Fintype.sum_prod_type' (f := fun (a : Fin 32) (b : Fin 32) => src (ix4 (0 : Fin 1) a b ci))]
  refine Finset.sum_nbij' (fun i => ((i 1 : Fin 32), (i 2 : Fin 32))) (fun p => ix4 (0 : Fin 1) p.1 p.2 ci) ?_ ?_ ?_ ?_ ?_
  · intro i _; exact Finset.mem_univ _
  · intro p _; exact Finset.mem_filter.2 ⟨Finset.mem_univ _, drop_ix4 _ _ _ _ _⟩
  · intro i hi
    have hj := (Finset.mem_filter.1 hi).2
    have h0 : (i 0).val < 1 := (i 0).isLt
    have h3 : (i 3).val = ci.val := by
      have := congrArg (fun j : S1x2048.Idx => (j 1).val) hj
      have e := reduces_S1x32x32x2048_S1x2048.drop_apply_val_of_eq i (⟨1, by decide⟩ : Fin S1x2048.rank) (3 : Fin 4)
      exact e.symm.trans this
    funext d
    apply Fin.ext
    match d with
    | ⟨0, _⟩ => show 0 = (i 0).val; omega
    | ⟨1, _⟩ => rfl
    | ⟨2, _⟩ => rfl
    | ⟨3, _⟩ => exact h3.symm
  · intro p _; rfl
  · intro i hi
    have hj := (Finset.mem_filter.1 hi).2
    have h0 : (i 0).val < 1 := (i 0).isLt
    have h3 : (i 3).val = ci.val := by
      have := congrArg (fun j : S1x2048.Idx => (j 1).val) hj
      have e := reduces_S1x32x32x2048_S1x2048.drop_apply_val_of_eq i (⟨1, by decide⟩ : Fin S1x2048.rank) (3 : Fin 4)
      exact e.symm.trans this
    refine congrArg src (funext fun d => Fin.ext ?_)
    match d with
    | ⟨0, _⟩ => show (i 0).val = 0; omega
    | ⟨1, _⟩ => rfl
    | ⟨2, _⟩ => rfl
    | ⟨3, _⟩ => exact h3

/-- The body's stored value at block position (u, a, b, co). -/
theorem pay_apply (x0 : Vec Ideal S1x32x32x2048 .f32) (x1 : Vec Ideal S256x2048 .f32) (x2 : Vec Ideal S1x256 .f32)
    (u : Fin 1) (a b : Fin 32) (co : Fin 256) :
    k0_pay1 x0 x1 x2 (ix4 u a b co)
      = max ((∑ ci : Fin 2048, (∑ a' : Fin 32, ∑ b' : Fin 32, x0 (ix4 (0 : Fin 1) a' b' ci)) * x1 (ix2 co ci))
          + x2 (ix2 (0 : Fin 1) co)) (Ideal.ofBits .f32 0x00000000#32) := by
  unfold k0_pay1
  dsimp only
  refine (broadcastTo_apply _ _ (ix4 u a b co) (ix4 (0 : Fin 1) (0 : Fin 1) (0 : Fin 1) co)
    (fun d => match d with | ⟨0, _⟩ => rfl | ⟨1, _⟩ => rfl | ⟨2, _⟩ => rfl | ⟨3, _⟩ => rfl)).trans ?_
  rw [shapeCast_self]
  refine (shapeCast_apply _ _ (ix4 (0 : Fin 1) (0 : Fin 1) (0 : Fin 1) co) (ix2 (0 : Fin 1) co) (by
    rw [Shape.rowMajor_val_two, Shape.rowMajor_val_four]; rfl)).trans ?_
  rw [maximumf_apply, addf_apply, broadcast_apply, shapeCast_self, shapeCast_self, shapeCast_self]
  rw [show dot_S1x2048_S256x2048_S1x256_1_1_0_0_n_n = DotDims.transposedRhs 1 2048 256 from rfl]
  simp only [matmul]
  rw [TransposedDot.matmul_zero_apply]
  refine congrArg₂ max (congrArg₂ (· + ·) (Finset.sum_congr rfl fun ci _ => ?_) rfl) rfl
  exact congrArg (· * x1 (ix2 co ci)) (sum_hw x0 _ _ (0 : Fin 1) ci)

end Cert.KernelIdeal.Bridge

end
-- ==== Proof.KValue.lean ====
/-
  The kernel's result array.  Grid point n of the one region holds image n: its block of the transposed input is
  xt(n, ·, ·, ·), the weight and shift blocks are the whole arrays, and the block it writes back is block n of
      outT(n, a, b, co) = max( Σ_ci pooled(n, ci) · W(co, ci) + shift(co), 0 ).
  The eight blocks tile the output, so after the region the output array is outT; the host's closing transpose
  reads outT at (n, a, b, co) for the result's (n, co, a, b).
-/
import proofs.«160035_g2000207088411349_pallasbulk_988_20_alg».proof.Proof.KHost
import proofs.«160035_g2000207088411349_pallasbulk_988_20_alg».proof.Proof.KBody
import Idealize.ShloMosaic.Lib.Pipeline.Value
import Idealize.ShloMosaic.Lib.StableHlo.Run

noncomputable section

open scoped BigOperators
open Idealize.ShloMosaic Idealize.ShloMosaic.TcCoe Idealize.SL.Sem
open Idealize.ShloMosaic.ValueIdx
open Idealize.ShloMosaic.Pipeline (Dat)

namespace Cert.KernelIdeal.Bridge

open Cert.KernelIdeal Cert.KernelIdeal.Gen Cert.PoolSpec

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz2 : (![0, 0] : Fin 2 → Nat) = fun _ => 0 := funext fun a => by fin_cases a <;> rfl

theorem lt8 (t : Fin cfg0.N) : t.val < 8 := lt_of_lt_of_eq t.isLt (show cfg0.N = 8 from N_0)

/-- The folded weight and the shift, of the arguments as launched. -/
abbrev wQ (c : Dev nD) : Fin 256 → Fin 2048 → EReal := weightQ (aW m c) (aG m c) (aV m c)
abbrev sh (c : Dev nD) : Fin 256 → EReal := shift (aB m c) (aM m c) (aG m c) (aV m c)

/-- The region's output array, channels last. -/
def outT (c : Dev nD) : S8x32x32x256.Idx → EReal :=
  fun i => act (aX m c) (wQ m c) (sh m c) (i 0) (i 3)

/-- The windows' block indices at grid point t: the input and output blocks are image t, the weight and shift whole. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 4) = t.val ∧ win0_3.index t (1 : Fin 4) = 0 ∧ win0_3.index t (2 : Fin 4) = 0 ∧ win0_3.index t (3 : Fin 4) = 0 :=
  (by decide +kernel : ∀ t : Fin grid0.N, _)

/-- Image t's block of the transposed input. -/
theorem blk0_apply (c : Dev nD) (t : Fin cfg0.N) (a b : Fin 32) (ci : Fin 2048) :
    (iblk m c 0 t : Vec Ideal S1x32x32x2048 .f32) (ix4 (0 : Fin 1) a b ci)
      = (V m c main_v13 : S8x32x32x2048.Idx → EReal) (ix4 (⟨t.val, lt8 t⟩ : Fin 8) a b ci) := by
  obtain ⟨e0, e1, e2, e3, -⟩ := idx_facts t
  unfold iblk
  rw [View.read_apply]
  show V m c main_v13 (((cfg0.win 0).blk t).view.emb (ix4 (0 : Fin 1) a b ci)) = V m c main_v13 _
  refine congrArg _ (funext fun d => Fin.ext ?_)
  match d with
  | ⟨0, _⟩ => show win0_0.index t (0 : Fin 4) * 1 + 1 * 0 = t.val; omega
  | ⟨1, _⟩ => show win0_0.index t (1 : Fin 4) * 32 + 1 * a.val = a.val; omega
  | ⟨2, _⟩ => show win0_0.index t (2 : Fin 4) * 32 + 1 * b.val = b.val; omega
  | ⟨3, _⟩ => show win0_0.index t (3 : Fin 4) * 2048 + 1 * ci.val = ci.val; omega

/-- The weight block is the whole weight. -/
theorem blk1_apply (c : Dev nD) (t : Fin cfg0.N) (co : Fin 256) (ci : Fin 2048) :
    (iblk m c 1 t : Vec Ideal S256x2048 .f32) (ix2 co ci) = (V m c main_v9 : S256x2048.Idx → EReal) (ix2 co ci) := by
  obtain ⟨-, -, -, -, e0, e1, -⟩ := idx_facts t
  unfold iblk
  rw [View.read_apply]
  show V m c main_v9 (((cfg0.win 1).blk t).view.emb (ix2 co ci)) = V m c main_v9 _
  refine congrArg _ (funext fun d => Fin.ext ?_)
  match d with
  | ⟨0, _⟩ => show win0_1.index t (0 : Fin 2) * 256 + 1 * co.val = co.val; omega
  | ⟨1, _⟩ => show win0_1.index t (1 : Fin 2) * 2048 + 1 * ci.val = ci.val; omega

/-- The shift block is the whole shift row. -/
theorem blk2_apply (c : Dev nD) (t : Fin cfg0.N) (u : Fin 1) (co : Fin 256) :
    (iblk m c 2 t : Vec Ideal S1x256 .f32) (ix2 u co) = (V m c main_v12 : S1x256.Idx → EReal) (ix2 u co) := by
  obtain ⟨-, -, -, -, -, -, e0, e1, -⟩ := idx_facts t
  unfold iblk
  rw [View.read_apply]
  show V m c main_v12 (((cfg0.win 2).blk t).view.emb (ix2 u co)) = V m c main_v12 _
  refine congrArg _ (funext fun d => Fin.ext ?_)
  match d with
  | ⟨0, _⟩ => show win0_2.index t (0 : Fin 2) * 1 + 1 * u.val = u.val; omega
  | ⟨1, _⟩ => show win0_2.index t (1 : Fin 2) * 256 + 1 * co.val = co.val; omega

/-- Where the output block's position (u, a, b, co) lies in the output array at point t: (t, a, b, co). -/
theorem emb3 (t : Fin cfg0.N) (u : Fin 1) (a b : Fin 32) (co : Fin 256) :
    ((cfg0.win 3).blk t).view.emb (ix4 u a b co) = (ix4 (⟨t.val, lt8 t⟩ : Fin 8) a b co : S8x32x32x256.Idx) := by
  obtain ⟨-, -, -, -, -, -, -, -, e0, e1, e2, e3⟩ := idx_facts t
  have hu : u.val = 0 := by omega
  refine funext fun d => Fin.ext ?_
  match d with
  | ⟨0, _⟩ => show win0_3.index t (0 : Fin 4) * 1 + 1 * u.val = t.val; omega
  | ⟨1, _⟩ => show win0_3.index t (1 : Fin 4) * 32 + 1 * a.val = a.val; omega
  | ⟨2, _⟩ => show win0_3.index t (2 : Fin 4) * 32 + 1 * b.val = b.val; omega
  | ⟨3, _⟩ => show win0_3.index t (3 : Fin 4) * 256 + 1 * co.val = co.val; omega

/-- What point t writes back is block t of `outT`. -/
theorem flushed_eq (c : Dev nD) (t : Fin cfg0.N) :
    (dats m 0 c).flushed 3 t = ((cfg0.win 3).blk t).view.read (Elt Ideal) (outT m c) := by
  show (cfg0.win 3).cut (grid0.coords t) ((dats m 0 c).after 3 t) = _
  rw [after0_3]
  unfold out0_3
  rw [View.canon_unit_zero hz4]
  simp only [View.ld_unit_zero (S := S1x32x32x2048) hz4, View.ld_unit_zero (S := S256x2048) hz2,
    View.ld_unit_zero (S := S1x256) hz2]
  funext j
  obtain ⟨u, a, b, co, rfl⟩ : ∃ (u : Fin 1) (a b : Fin 32) (co : Fin 256), j = ix4 u a b co :=
    ⟨j 0, j 1, j 2, j 3, eq_ix4 j⟩
  refine (pay_apply (iblk m c 0 t) (iblk m c 1 t) (iblk m c 2 t) u a b co).trans ?_
  rw [View.read_apply, emb3]
  have hx0 : ∀ (a' b' : Fin 32) (ci : Fin 2048),
      (iblk m c 0 t : Vec Ideal S1x32x32x2048 .f32) (ix4 (0 : Fin 1) a' b' ci)
        = aX m c (ix4 (⟨t.val, lt8 t⟩ : Fin 8) ci a' b') :=
    fun a' b' ci => (blk0_apply m c t a' b' ci).trans (V_v13_apply m c _ a' b' ci)
  have hx1 : ∀ ci : Fin 2048, (iblk m c 1 t : Vec Ideal S256x2048 .f32) (ix2 co ci) = wQ m c co ci :=
    fun ci => (blk1_apply m c t co ci).trans (V_v9_apply m c co ci)
  have hx2 : (iblk m c 2 t : Vec Ideal S1x256 .f32) (ix2 (0 : Fin 1) co) = sh m c co :=
    (blk2_apply m c t 0 co).trans (V_v12_apply m c 0 co)
  refine Eq.trans (congrArg₂ max (congrArg₂ (· + ·) (Finset.sum_congr rfl fun ci _ => congrArg₂ (· * ·)
    (Finset.sum_congr rfl fun a' _ => Finset.sum_congr rfl fun b' _ => hx0 a' b' ci) (hx1 ci)) hx2) rfl) ?_
  rfl

/-- An index of the output array is in point t's block iff each coordinate is in the block's range on its axis. -/
theorem mem_blk (t : Fin cfg0.N) (i : S8x32x32x256.Idx) :
    i ∈ ((cfg0.win 3).blk t).view.set ↔ ∀ a : Fin 4, win0_3.index t a * S1x32x32x256.size a ≤ (i a).val
      ∧ (i a).val < win0_3.index t a * S1x32x32x256.size a + S1x32x32x256.size a := by
  show i ∈ ((View.whole main_v14).slice (win0_3.rect t)).set ↔ _
  rw [View.set_slice_whole, Rect.mem_set_unit]
  exact Iff.rfl

/-- The output array after the region. -/
theorem final (c : Dev nD) : (dats m 0 c).arrAt 3 cfg0.N = outT m c :=
  (dats m 0 c).arrAt_eq_of_cover 3 (outT m c) (fun t _ => flushed_eq m c t) fun i => by
    have h0 : (i 0).val < 8 := (i 0).isLt
    have h1 : (i 1).val < 32 := (i 1).isLt
    have h2 : (i 2).val < 32 := (i 2).isLt
    have h3 : (i 3).val < 256 := (i 3).isLt
    have hN : (i 0).val < cfg0.N := by rw [show cfg0.N = 8 from N_0]; exact h0
    refine ⟨⟨(i 0).val, hN⟩, flush0_3 _, ?_⟩
    rw [mem_blk]
    obtain ⟨-, -, -, -, -, -, -, -, e0, e1, e2, e3⟩ := idx_facts ⟨(i 0).val, hN⟩
    have e0' : win0_3.index ⟨(i 0).val, hN⟩ (0 : Fin 4) = (i 0).val := e0
    intro a
    match a with
    | ⟨0, _⟩ =>
      show win0_3.index ⟨(i 0).val, hN⟩ (0 : Fin 4) * 1 ≤ (i 0).val ∧ (i 0).val < win0_3.index ⟨(i 0).val, hN⟩ (0 : Fin 4) * 1 + 1
      omega
    | ⟨1, _⟩ =>
      show win0_3.index ⟨(i 0).val, hN⟩ (1 : Fin 4) * 32 ≤ (i 1).val ∧ (i 1).val < win0_3.index ⟨(i 0).val, hN⟩ (1 : Fin 4) * 32 + 32
      omega
    | ⟨2, _⟩ =>
      show win0_3.index ⟨(i 0).val, hN⟩ (2 : Fin 4) * 32 ≤ (i 2).val ∧ (i 2).val < win0_3.index ⟨(i 0).val, hN⟩ (2 : Fin 4) * 32 + 32
      omega
    | ⟨3, _⟩ =>
      show win0_3.index ⟨(i 0).val, hN⟩ (3 : Fin 4) * 256 ≤ (i 3).val ∧ (i 3).val < win0_3.index ⟨(i 0).val, hN⟩ (3 : Fin 4) * 256 + 256
      omega

/-- The closing transpose of `outT` is the specification's output array. -/
theorem transposed_eq (c : Dev nD) :
    transpose S8x256x32x32 [0, 3, 1, 2] (outT m c) transposes_S8x32x32x256_S8x256x32x32_0_3_1_2
      = out (aX m c) (wQ m c) (sh m c) := by
  funext j
  obtain ⟨n, co, a, b, rfl⟩ : ∃ (n : Fin 8) (co : Fin 256) (a b : Fin 32), j = ix4 n co a b :=
    ⟨j 0, j 1, j 2, j 3, eq_ix4 j⟩
  refine (transpose_apply _ _ _ (ix4 n co a b) (ix4 n a b co)
    fun d => match d with | ⟨0, _⟩ => rfl | ⟨1, _⟩ => rfl | ⟨2, _⟩ => rfl | ⟨3, _⟩ => rfl).trans ?_
  rfl

/-- What @main's result buffer holds after the host's closing transpose. -/
theorem tail_v15 (c : Dev nD) :
    Pipeline.afterTail₀ cfgs (dats m) 0 (V0 m) [hostOps1] c main_v15 = out (aX m c) (wQ m c) (sh m c) := by
  unfold Pipeline.afterTail₀
  show StableHlo.after hostOps1 _ (Proc.devRef .tc main_v15) = _
  after_results
  exact (congrArg (fun z => transpose S8x256x32x32 [0, 3, 1, 2] z transposes_S8x32x32x256_S8x256x32x32_0_3_1_2)
    ((Pipeline.withArrays_arr spec0 launch0.win.arr_inj c (V0 m c) (fun w => (dats m 0 c).arrAt w cfg0.N) 3).trans
      (final m c))).trans (transposed_eq m c)

/-- The run, read at @main's result and arguments: the generated frame run's post, the result buffer through the
    closing transpose. -/
theorem run : θ_run defs (onTc (τ := τ) (main (F := Ideal))) ⟨m, fun _ => 0, ρ⟩ (fun r => ∀ c : Dev nD,
      r.2.mem ((c.tc : Thread nD τ).loc main_v15) = out (aX m c) (wQ m c) (sh m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v15 (Pipeline.mem_restRefs_of main_v15 (by decide) (by decide))).trans (tail_v15 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c)⟩)
    (run_main m ρ)

end Cert.KernelIdeal.Bridge

end
-- ==== Proof.RHost.lean ====
/-
  What the reference's host operations before its first region leave in the arrays its two regions read, entry by
  entry: the input with its two spatial axes flattened, x3(n, ci, q) = x(n, ci, q / 32, q % 32); the folded weight,
  transposed, (w(co, ci) · s(co)) / 1024 at (ci, co); the shift β(co) − μ(co) · s(co) as a row.
-/
import proofs.«160035_g2000207088411349_pallasbulk_988_20_alg».proof.Proof.Gen.ReferenceIdeal.Frame
import proofs.«160035_g2000207088411349_pallasbulk_988_20_alg».proof.Proof.PoolSpec
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem
open Idealize.ShloMosaic.ValueIdx

namespace Cert.ReferenceIdeal.Bridge

open Cert.ReferenceIdeal Cert.ReferenceIdeal.Gen Cert.PoolSpec

variable (m : (ℓ : Loc nD τ sig) → Buf (Elt Ideal) ℓ) (ρ : Dev nD → PrngReg)

/-- The six argument arrays as launched, as functions of their indices. -/
abbrev aX (c : Dev nD) : FVec Ideal S8x2048x32x32 .f32 := m ((c : Thread nD τ).loc main_arg0)
abbrev aW (c : Dev nD) : FVec Ideal S256x2048x1x1 .f32 := m ((c : Thread nD τ).loc main_arg1)
abbrev aG (c : Dev nD) : FVec Ideal S256 .f32 := m ((c : Thread nD τ).loc main_arg2)
abbrev aB (c : Dev nD) : FVec Ideal S256 .f32 := m ((c : Thread nD τ).loc main_arg3)
abbrev aM (c : Dev nD) : FVec Ideal S256 .f32 := m ((c : Thread nD τ).loc main_arg4)
abbrev aV (c : Dev nD) : FVec Ideal S256 .f32 := m ((c : Thread nD τ).loc main_arg5)

/-- The scale vector the host computes: γ · rsqrt(σ² + ε). -/
abbrev sArr (c : Dev nD) : FVec Ideal S256 .f32 :=
  mulf (aG m c) (Host.rsqrt (addf (aV m c) (broadcastInDim S256 ![] bcast_S_S256 (constant S_ .f32 0x3727C5AC#32))))

theorem sArr_apply (c : Dev nD) (co : Fin 256) : sArr m c (ix1 co) = scale (aG m c) (aV m c) co := by
  show aG m c (ix1 co) * Ideal.rsqrt (aV m c (ix1 co)
    + broadcastInDim S256 ![] bcast_S_S256 (constant (F := Ideal) S_ .f32 0x3727C5AC#32) (ix1 co)) = _
  rw [broadcastInDim_apply _ _ _ (ix1 co) ix0 (fun a => a.elim0)]
  rfl

/-- The input with its spatial axes flattened. -/
theorem V_v14 (c : Dev nD) : (V1 m ρ c main_v14 : S8x2048x1024.Idx → EReal)
    = shapeCast S8x2048x1024 (aX m c) shapeCasts_S8x2048x32x32_S8x2048x1024 := by
  show StableHlo.after hostOps0 (W0 m ρ c) (Proc.devRef .tc main_v14) = _
  after_results
  rfl

theorem V_v14_apply (c : Dev nD) (n : Fin 8) (ci : Fin 2048) (q : Fin 1024) :
    (V1 m ρ c main_v14 : S8x2048x1024.Idx → EReal) (ix3 n ci q)
      = aX m c (ix4 n ci ⟨q.val / 32, by have := q.isLt; omega⟩ ⟨q.val % 32, Nat.mod_lt _ (by decide)⟩) := by
  refine (congrFun (V_v14 m ρ c) _).trans ?_
  refine shapeCast_apply (aX m c) _ (ix3 n ci q) _ ?_
  rw [Shape.rowMajor_val_four, Shape.rowMajor_val_three]
  show ((n.val * 2048 + ci.val) * 32 + q.val / 32) * 32 + q.val % 32 = (n.val * 2048 + ci.val) * 1024 + q.val
  omega

/-- The shift row. -/
theorem V_v13 (c : Dev nD) : (V1 m ρ c main_v13 : S1x256.Idx → EReal)
    = shapeCast S1x256 (subf (aB m c) (mulf (aM m c) (sArr m c))) shapeCasts_S256_S1x256 := by
  show StableHlo.after hostOps0 (W0 m ρ c) (Proc.devRef .tc main_v13) = _
  after_results
  rfl

theorem V_v13_apply (c : Dev nD) (u : Fin 1) (co : Fin 256) :
    (V1 m ρ c main_v13 : S1x256.Idx → EReal) (ix2 u co) = shift (aB m c) (aM m c) (aG m c) (aV m c) co := by
  refine (congrFun (V_v13 m ρ c) _).trans ?_
  refine (shapeCast_a_1a_apply _ _ u co).trans ?_
  show aB m c (ix1 co) - aM m c (ix1 co) * sArr m c (ix1 co) = _
  rw [sArr_apply]
  rfl

/-- The folded weight, transposed. -/
theorem V_v10 (c : Dev nD) : (V1 m ρ c main_v10 : S2048x256.Idx → EReal)
    = transpose S2048x256 [1, 0]
        (Host.divf
          (mulf (shapeCast S256x2048 (aW m c) shapeCasts_S256x2048x1x1_S256x2048)
            (broadcastInDim S256x2048 ![0, 1] bcast_S256x1_S256x2048_0_1
              (broadcastInDim S256x1 ![0] bcast_S256_S256x1_0 (sArr m c))))
          (broadcastInDim S256x2048 ![] bcast_S_S256x2048 (constant S_ .f32 0x44800000#32)))
        transposes_S256x2048_S2048x256_1_0 := by
  show StableHlo.after hostOps0 (W0 m ρ c) (Proc.devRef .tc main_v10) = _
  after_results
  rfl

theorem V_v10_apply (c : Dev nD) (ci : Fin 2048) (co : Fin 256) :
    (V1 m ρ c main_v10 : S2048x256.Idx → EReal) (ix2 ci co) = weightP (aW m c) (aG m c) (aV m c) co ci := by
  refine (congrFun (V_v10 m ρ c) _).trans ?_
  refine (transpose_ix2_apply _ _ ci co).trans ?_
  show Ideal.div
      (shapeCast S256x2048 (aW m c) shapeCasts_S256x2048x1x1_S256x2048 (ix2 co ci)
        * broadcastInDim S256x2048 ![0, 1] bcast_S256x1_S256x2048_0_1
            (broadcastInDim S256x1 ![0] bcast_S256_S256x1_0 (sArr m c)) (ix2 co ci))
      (broadcastInDim S256x2048 ![] bcast_S_S256x2048 (constant (F := Ideal) S_ .f32 0x44800000#32) (ix2 co ci)) = _
  rw [shapeCast_apply (aW m c) _ (ix2 co ci) (ix4 co ci (0 : Fin 1) (0 : Fin 1)) (by
      rw [Shape.rowMajor_val_four, Shape.rowMajor_val_two]
      show ((co.val * 2048 + ci.val) * 1 + 0) * 1 + 0 = co.val * 2048 + ci.val
      omega),
    broadcastInDim_apply _ _ _ (ix2 co ci) (ix2 co (0 : Fin 1)) (fun a => match a with | ⟨0, _⟩ => rfl | ⟨1, _⟩ => rfl),
    broadcastInDim_apply _ _ _ (ix2 co (0 : Fin 1)) (ix1 co) (fun a => match a with | ⟨0, _⟩ => rfl),
    broadcastInDim_apply _ _ _ (ix2 co ci) ix0 (fun a => a.elim0), sArr_apply]
  rfl

end Cert.ReferenceIdeal.Bridge

end
-- ==== Proof.RPool.lean ====
/-
  The reference's first region: the spatial sums, accumulated.  Its grid is 8 channel blocks by 2 halves of the 1024
  flattened positions; point t = 2·q + h holds channels 256·q … 256·q + 255 and positions 512·h … 512·h + 511.  At
  h = 0 the body stores zero, reads it back and adds the block's row sums; at h = 1 it adds the block's row sums to
  what the point before left, and that is written back.  So after the region the output array holds, at (n, ci),
      (0 + Σ_{k<512} x3(n, ci, k)) + Σ_{k<512} x3(n, ci, 512 + k),
  whatever array x3 the region was entered with.
-/
import proofs.«160035_g2000207088411349_pallasbulk_988_20_alg».proof.Proof.Gen.ReferenceIdeal.Frame
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

noncomputable section

open scoped BigOperators
open Idealize.ShloMosaic Idealize.ShloMosaic.TcCoe Idealize.ShloMosaic.Tactic Idealize.SL.Sem
open Idealize.ShloMosaic.ValueIdx
open Idealize.ShloMosaic.Pipeline (Dat)

namespace Cert.ReferenceIdeal.Bridge

open Cert.ReferenceIdeal Cert.ReferenceIdeal.Gen

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

theorem lt16 (t : Fin cfg0.N) : t.val < 16 := lt_of_lt_of_eq t.isLt (show cfg0.N = 16 from N_0)

/-- At a point of the second half the body leaves the accumulator plus the block's row sums. -/
theorem out_B (c : Dev nD) (i : grid0.Coords) (a1 : Memref sig .tc .vmem S8x256x512 .f32) (h1 : a1.IsWhole)
    (a2 : Memref sig .tc .vmem S8x256 .f32) (h2 : a2.IsWhole) (hc : ¬cond0_0 i)
    (x : Vec Ideal S8x256x512 .f32) (xo : Vec Ideal S8x256 .f32) :
    out0_B_1 c i a1 h1 a2 h2 hc x xo = k0_pay2 x xo := by
  unfold out0_B_1
  rw [View.read_writes_eq_canon _ _ _ (cover0_B_1 c i a1 h1 a2 h2 hc x xo)]
  unfold kernelRun0_B
  dsimp only
  rw [View.canon_unit_zero hz2]
  simp only [View.readAt_eq_ld, h1.read_unread, h2.read_unread, View.ld_unit_zero (S := S8x256x512) hz3,
    View.ld_unit_zero (S := S8x256) hz2]

/-- At a point of the first half the body leaves zero plus the block's row sums. -/
theorem out_A (c : Dev nD) (i : grid0.Coords) (a1 : Memref sig .tc .vmem S8x256x512 .f32) (h1 : a1.IsWhole)
    (a2 : Memref sig .tc .vmem S8x256 .f32) (h2 : a2.IsWhole) (hc : cond0_0 i)
    (x : Vec Ideal S8x256x512 .f32) :
    out0_A_1 c i a1 h1 a2 h2 hc x = k0_pay2 x (k0_pay1 (F := Ideal)) := by
  unfold out0_A_1
  rw [View.read_writes_eq_canon _ _ _ (cover0_A_1 c i a1 h1 a2 h2 hc x)]
  unfold kernelRun0_A
  dsimp only
  sl_unfold_words
  rw [View.canon_cons_unit_zero (S := S8x256) hz2, View.readCov_unit_zero (S := S8x256) _ hz2]
  simp only [View.readAt_eq_ld, h1.read_unread, View.ld_unit_zero (S := S8x256x512) hz3]

/-- The index a row sum at (n, cl) collects at position k is (n, cl, k). -/
theorem lift3 (n : Fin 8) (cl : Fin 256) (k : Fin 512) :
    reduces_S8x256x512_S8x256.lift (ix2 n cl) k = ix3 n cl k := by
  funext d
  apply Fin.ext
  show reduces_S8x256x512_S8x256.liftVal (ix2 n cl) k.val d = (ix3 n cl k d).val
  unfold Shape.Reduces.liftVal
  match d with
  | ⟨0, _⟩ => rfl
  | ⟨1, _⟩ => rfl
  | ⟨2, _⟩ => rfl

/-- The accumulating store's value at (n, cl): the accumulator there plus the block's row sum. -/
theorem pay2_apply (x : Vec Ideal S8x256x512 .f32) (xo : Vec Ideal S8x256 .f32) (n : Fin 8) (cl : Fin 256) :
    k0_pay2 x xo (ix2 n cl) = xo (ix2 n cl) + ∑ k : Fin 512, x (ix3 n cl k) := by
  unfold k0_pay2
  dsimp only
  rw [addf_apply, shapeCast_self, shapeCast_self]
  refine congrArg (xo (ix2 n cl) + ·) ?_
  exact (Ideal.multiReduction_add_single x _ reduces_S8x256x512_S8x256 _ _ (ix2 n cl)).trans
    (Finset.sum_congr rfl fun k _ => congrArg x (lift3 n cl k))

/-- After a point of the second half the accumulator holds both halves' row sums over zero. -/
theorem outsAt_odd (c : Dev nD) (t : Fin cfg0.N) (ho : t.val % 2 = 1) :
    outsAt0 V c t.val t.isLt
      = k0_pay2 (iblk0 V c 0 t)
          (k0_pay2 (iblk0 V c 0 ⟨t.val - 1, lt_of_le_of_lt (Nat.sub_le _ _) t.isLt⟩) (k0_pay1 (F := Ideal))) := by
  have hB : ¬ t.val % 2 = 0 := by omega
  rw [outsAt0_B V c t hB, out_B]
  have hA : (⟨t.val - 1, lt_of_le_of_lt (Nat.sub_le _ _) t.isLt⟩ : Fin cfg0.N).val % 2 = 0 := by
    show (t.val - 1) % 2 = 0; omega
  have e := (outsAt0_A V c ⟨t.val - 1, lt_of_le_of_lt (Nat.sub_le _ _) t.isLt⟩ hA).trans (out_A ..)
  exact congrArg (k0_pay2 (iblk0 V c 0 t)) e

/-- The array the region reads, as it finds it. -/
abbrev inArr (c : Dev nD) : S8x2048x1024.Idx → EReal := V c main_v14

/-- The windows' block indices at point t: channel block t / 2, half t % 2. -/
theorem idx_facts0 : ∀ t : Fin cfg0.N,
    win0_0.index t (0 : Fin 3) = 0 ∧ win0_0.index t (1 : Fin 3) = t.val / 2 ∧ win0_0.index t (2 : Fin 3) = t.val % 2
    ∧ win0_1.index t (0 : Fin 2) = 0 ∧ win0_1.index t (1 : Fin 2) = t.val / 2 :=
  (by decide +kernel : ∀ t : Fin grid0.N, _)

/-- The input block at point t, read off the entry array. -/
theorem blk0_apply (c : Dev nD) (t : Fin cfg0.N) (n : Fin 8) (cl : Fin 256) (k : Fin 512) (ci : Fin 2048) (q : Fin 1024)
    (hci : ci.val = 256 * (t.val / 2) + cl.val) (hq : q.val = 512 * (t.val % 2) + k.val) :
    (iblk0 V c 0 t : Vec Ideal S8x256x512 .f32) (ix3 n cl k)
      = inArr V c (ix3 n ci q) := by
  obtain ⟨e0, e1, e2, -⟩ := idx_facts0 t
  unfold iblk0
  rw [View.read_apply]
  show V c main_v14 (((cfg0.win 0).blk t).view.emb (ix3 n cl k)) = V c main_v14 _
  refine congrArg _ (funext fun d => Fin.ext ?_)
  match d with
  | ⟨0, _⟩ => show win0_0.index t (0 : Fin 3) * 8 + 1 * n.val = n.val; omega
  | ⟨1, _⟩ => show win0_0.index t (1 : Fin 3) * 256 + 1 * cl.val = ci.val; omega
  | ⟨2, _⟩ => show win0_0.index t (2 : Fin 3) * 512 + 1 * k.val = q.val; omega

/-- Where the output block's position (n, cl) lies in the output array at point t. -/
theorem emb1 (t : Fin cfg0.N) (n : Fin 8) (cl : Fin 256) (ci : Fin 2048) (hci : ci.val = 256 * (t.val / 2) + cl.val) :
    ((cfg0.win 1).blk t).view.emb (ix2 n cl) = (ix2 n ci : S8x2048.Idx) := by
  obtain ⟨-, -, -, e0, e1⟩ := idx_facts0 t
  refine funext fun d => Fin.ext ?_
  match d with
  | ⟨0, _⟩ => show win0_1.index t (0 : Fin 2) * 8 + 1 * n.val = n.val; omega
  | ⟨1, _⟩ => show win0_1.index t (1 : Fin 2) * 256 + 1 * cl.val = ci.val; omega

/-- The region's output array: each entry the entry array's row summed over its two halves, from zero. -/
def poolArr (c : Dev nD) : S8x2048.Idx → EReal := fun i =>
  (Ideal.ofBits .f32 0x00000000#32
      + ∑ k : Fin 512, inArr V c (ix3 (i 0) (i 1) ⟨k.val, by have := k.isLt; omega⟩))
    + ∑ k : Fin 512, inArr V c (ix3 (i 0) (i 1) ⟨512 + k.val, by have := k.isLt; omega⟩)

/-- What a point of the second half writes back is its block of `poolArr`. -/
theorem flushed_eq0 (c : Dev nD) (t : Fin cfg0.N) (hf : (cfg0.win 1).flush t = true) :
    (dat0 V c).flushed 1 t = ((cfg0.win 1).blk t).view.read (Elt Ideal) (poolArr V c) := by
  have ho : t.val % 2 = 1 := (flush0_1 t).mp hf
  have h16 := lt16 t
  show (cfg0.win 1).cut (grid0.coords t) ((dat0 V c).after 1 t) = _
  rw [after0_1, outsAt_odd V c t ho]
  funext j
  obtain ⟨n, cl, rfl⟩ : ∃ (n : Fin 8) (cl : Fin 256), j = ix2 n cl := ⟨j 0, j 1, eq_ix2 j⟩
  have hcl := cl.isLt
  refine (pay2_apply (iblk0 V c 0 t) _ n cl).trans ?_
  rw [pay2_apply, View.read_apply,
    emb1 t n cl ⟨256 * (t.val / 2) + cl.val, by omega⟩ rfl]
  show _ = poolArr V c (ix2 n (⟨256 * (t.val / 2) + cl.val, by omega⟩ : Fin 2048))
  unfold poolArr
  refine congrArg₂ (· + ·) (congrArg₂ (· + ·) rfl (Finset.sum_congr rfl fun k _ => ?_)) (Finset.sum_congr rfl fun k _ => ?_)
  · have hk := k.isLt
    exact blk0_apply V c ⟨t.val - 1, lt_of_le_of_lt (Nat.sub_le _ _) t.isLt⟩ n cl k _ _
      (by show 256 * (t.val / 2) + cl.val = 256 * ((t.val - 1) / 2) + cl.val; omega)
      (by show k.val = 512 * ((t.val - 1) % 2) + k.val; omega)
  · have hk := k.isLt
    exact blk0_apply V c t n cl k _ _
      (by show 256 * (t.val / 2) + cl.val = 256 * (t.val / 2) + cl.val; rfl)
      (by show 512 + k.val = 512 * (t.val % 2) + k.val; omega)

/-- An index of the output array is in point t's block iff each coordinate is in the block's range on its axis. -/
theorem mem_blk1 (t : Fin cfg0.N) (i : S8x2048.Idx) :
    i ∈ ((cfg0.win 1).blk t).view.set ↔ ∀ a : Fin 2, win0_1.index t a * S8x256.size a ≤ (i a).val
      ∧ (i a).val < win0_1.index t a * S8x256.size a + S8x256.size a := by
  show i ∈ ((View.whole main_v15).slice (win0_1.rect t)).set ↔ _
  rw [View.set_slice_whole, Rect.mem_set_unit]
  exact Iff.rfl

/-- The output array after the region. -/
theorem final0 (c : Dev nD) : (dat0 V c).arrAt 1 cfg0.N = poolArr V c :=
  (dat0 V c).arrAt_eq_of_cover 1 (poolArr V c) (flushed_eq0 V c) fun i => by
    have h0 : (i 0).val < 8 := (i 0).isLt
    have h1 : (i 1).val < 2048 := (i 1).isLt
    have hN : 2 * ((i 1).val / 256) + 1 < cfg0.N := by rw [show cfg0.N = 16 from N_0]; omega
    refine ⟨⟨2 * ((i 1).val / 256) + 1, hN⟩, (flush0_1 _).mpr (by show (2 * ((i 1).val / 256) + 1) % 2 = 1; omega), ?_⟩
    rw [mem_blk1]
    obtain ⟨-, -, -, e0, e1⟩ := idx_facts0 ⟨2 * ((i 1).val / 256) + 1, hN⟩
    have e1' : win0_1.index ⟨2 * ((i 1).val / 256) + 1, hN⟩ (1 : Fin 2) = (2 * ((i 1).val / 256) + 1) / 2 := e1
    intro a
    match a with
    | ⟨0, _⟩ =>
      show win0_1.index ⟨2 * ((i 1).val / 256) + 1, hN⟩ (0 : Fin 2) * 8 ≤ (i 0).val
        ∧ (i 0).val < win0_1.index ⟨2 * ((i 1).val / 256) + 1, hN⟩ (0 : Fin 2) * 8 + 8
      omega
    | ⟨1, _⟩ =>
      show win0_1.index ⟨2 * ((i 1).val / 256) + 1, hN⟩ (1 : Fin 2) * 256 ≤ (i 1).val
        ∧ (i 1).val < win0_1.index ⟨2 * ((i 1).val / 256) + 1, hN⟩ (1 : Fin 2) * 256 + 256
      omega

end Cert.ReferenceIdeal.Bridge

end
-- ==== Proof.LibPlainDot.lean ====
/-
  A plain matrix product, M×K by K×N, at the ideal values, read at an index as the sum over the contracted coordinate of
  the products of the operands' entries — for the vector unit's `tpu.matmul` into the zero accumulator and for the host's
  `dot_general` alike. The contraction has one axis, of extent K: its index is that one coordinate (`contrE`), the left
  operand's index at (r, c) and k is (r, k), the right operand's is (k, c).
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The one-axis contraction index of a plain product is its coordinate. -/
def contrE (M K N : Nat) : (DotDims.plain M K N).contr.Idx ≃ Fin K :=
  contrEquiv1 (DotDims.plain M K N) K rfl rfl

theorem contrE_symm_val (k : Fin K) :
    ((contrE M K N).symm k ⟨0, by have h : (DotDims.plain M K N).contr.rank = 1 := rfl; omega⟩ : ℕ) = k.val :=
  contrEquiv1_symm_val (DotDims.plain M K N) K rfl rfl k

/-- The left operand is read at (row of the result, contracted coordinate). -/
theorem lhsIdx_eq (r : Fin M) (c : Fin N) (k : Fin K) :
    (DotDims.plain M K N).lhsIdx (ix2 r c) ((contrE M K N).symm k) = ix2 r k := by
  funext a
  apply Fin.ext
  match a with
  | ⟨0, _⟩ => rfl
  | ⟨1, _⟩ => exact ((DotDims.plain M K N).lhsIdx_val_of_single (cl := 1) rfl (ix2 r c) _).trans (contrE_symm_val k)

/-- The right operand is read at (contracted coordinate, column of the result). -/
theorem rhsIdx_eq (r : Fin M) (c : Fin N) (k : Fin K) :
    (DotDims.plain M K N).rhsIdx (ix2 r c) ((contrE M K N).symm k) = ix2 k c := by
  funext a
  apply Fin.ext
  match a with
  | ⟨0, _⟩ => exact ((DotDims.plain M K N).rhsIdx_val_of_single (cr := 0) rfl (ix2 r c) _).trans (contrE_symm_val k)
  | ⟨1, _⟩ => rfl

/-- The sum over the contraction index of a plain product, re-indexed by the contracted coordinate. -/
theorem sum_contr (f : (⟨2, ![M, K]⟩ : Shape).Idx → EReal) (g : (⟨2, ![K, N]⟩ : Shape).Idx → EReal) (r : Fin M) (c : Fin N) :
    (∑ k : (DotDims.plain M K N).contr.Idx, f ((DotDims.plain M K N).lhsIdx (ix2 r c) k) * g ((DotDims.plain M K N).rhsIdx (ix2 r c) k))
      = ∑ k : Fin K, f (ix2 r k) * g (ix2 k c) := by
  rw [← Equiv.sum_comp (contrE M K N).symm]
  exact Finset.sum_congr rfl fun k _ => by rw [lhsIdx_eq, rhsIdx_eq]

/-- `tpu.matmul` into the zero accumulator, at (r, c). -/
theorem matmul_zero_apply {φ₁ φ₂ : FTy} (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant (⟨2, ![M, N]⟩ : Shape) .f32 0x00000000#32) (ix2 r c)
      = ∑ k : Fin K, x (ix2 r k) * w (ix2 k c) :=
  (Ideal.matmul_constant_zero_apply (DotDims.plain M K N) prec x w (ix2 r c)).trans (sum_contr x w r c)

/-- The host's `dot_general`, at (r, c). -/
theorem dotGeneral_apply {φ₁ φ₂ : FTy} (prec : Option ContractPrecision) (sched : HostSchedule)
    (x : FVec Ideal ⟨2, ![M, K]⟩ φ₁) (w : FVec Ideal ⟨2, ![K, N]⟩ φ₂) (r : Fin M) (c : Fin N) :
    FloatOps.dotGeneral (DotDims.plain M K N) prec sched x w (ix2 r c) = ∑ k : Fin K, x (ix2 r k) * w (ix2 k c) :=
  (Ideal.dotGeneral_apply (DotDims.plain M K N) prec sched x w (ix2 r c)).trans (sum_contr x w r c)

end Idealize.ShloMosaic.PlainDot

end
-- ==== Proof.LibLayoutRead.lean ====
/-
  Layout operations read at an index written by its coordinates: the shape casts that add a trailing unit axis
  (a row sum kept as a column), the casts between [a, b, c] and [a·b, c] (rows of a slab laid end to end), the
  broadcasts along unit axes, and the source index of a reduction over the last axis. Each is the general
  read-at-an-index lemma of the library with its per-axis side condition discharged once.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.LayoutRead

open Idealize.ShloMosaic Idealize.ShloMosaic.ValueIdx

variable {α : Type}

/-- An [a, b] array cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a] array cast to [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, b, c] array cast to [m, c] (m = a·b: the rows laid end to end) reads, at (q, k) with q = i·b + j, the
    operand at (i, j, k). -/
theorem shapeCast_abc_mc_apply {a b c m : ℕ} (x : (⟨3, ![a, b, c]⟩ : Shape).Idx → α)
    (h : (⟨3, ![a, b, c]⟩ : Shape).ShapeCasts ⟨2, ![m, c]⟩) (i : Fin a) (j : Fin b) (k : Fin c) (q : Fin m)
    (hq : q.val = i.val * b + j.val) :
    shapeCast ⟨2, ![m, c]⟩ x h (ix2 q k) = x (ix3 i j k) :=
  shapeCast_apply x h _ _ (by
    rw [Shape.rowMajor_val_three, Shape.rowMajor_val_two]
    show (i.val * b + j.val) * c + k.val = q.val * c + k.val
    rw [hq])

/-- An [m, c] array cast to [a, b, c] reads, at (i, j, k), the operand at (q, k) with q = i·b + j. -/
theorem shapeCast_mc_abc_apply {a b c m : ℕ} (x : (⟨2, ![m, c]⟩ : Shape).Idx → α)
    (h : (⟨2, ![m, c]⟩ : Shape).ShapeCasts ⟨3, ![a, b, c]⟩) (i : Fin a) (j : Fin b) (k : Fin c) (q : Fin m)
    (hq : q.val = i.val * b + j.val) :
    shapeCast ⟨3, ![a, b, c]⟩ x h (ix3 i j k) = x (ix2 q k) :=
  shapeCast_apply x h _ _ (by
    rw [Shape.rowMajor_val_three, Shape.rowMajor_val_two]
    show q.val * c + k.val = (i.val * b + j.val) * c + k.val
    rw [hq])

/-- A broadcast of an [a, b, 1] array along its unit axis reads, at (i, j, k), the operand at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) :=
  broadcastTo_apply v h _ _ (by
    intro d
    match d with
    | ⟨0, _⟩ =>
      show i.val = if a = 1 then 0 else i.val
      split
      · omega
      · rfl
    | ⟨1, _⟩ =>
      show j.val = if b = 1 then 0 else j.val
      split
      · omega
      · rfl
    | ⟨2, _⟩ => rfl)

/-- A broadcast of a [1, 1, c] array over the two leading axes reads, at (i, j, k), the operand at (0, 0, k). -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) :=
  broadcastTo_apply v h _ _ (by
    intro d
    match d with
    | ⟨0, _⟩ => rfl
    | ⟨1, _⟩ => rfl
    | ⟨2, _⟩ =>
      show k.val = if c = 1 then 0 else k.val
      split
      · omega
      · rfl)

/-- A broadcast of an [a, 1] column over b columns reads, at (i, j), the operand at (i, 0). -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) :=
  broadcastTo_apply v h _ _ (by
    intro d
    match d with
    | ⟨0, _⟩ =>
      show i.val = if a = 1 then 0 else i.val
      split
      · omega
      · rfl
    | ⟨1, _⟩ => rfl)

/-- The source index of a reduction of an [a, b] array over its last axis, over result index i with the summed
    coordinate k: (i, k). -/
theorem lift_ab_last {a b : ℕ} (h : (⟨2, ![a, b]⟩ : Shape).Reduces [(1 : Fin 2)] ⟨1, ![a]⟩) (i : Fin a) (k : Fin b) :
    h.lift (ix1 i) k = ix2 i k := by
  funext d
  apply Fin.ext
  show h.liftVal (ix1 i) k.val d = (ix2 i k d).val
  unfold Shape.Reduces.liftVal
  match d with
  | ⟨0, _⟩ => rfl
  | ⟨1, _⟩ => rfl

/-- A sum over the last axis of an [a, b] array at the ideal values, read at i: the sum over k of the entries (i, k). -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) :=
  (Ideal.multiReduction_add_single src acc h hφ hacc (ix1 i)).trans
    (Finset.sum_congr rfl fun k _ => congrArg src (lift_ab_last h i k))

end Idealize.ShloMosaic.LayoutRead

end
-- ==== Proof.RBcast.lean ====
/-
  The reference's second region: the 1×1 convolution of the pooled sums, the shift, the clamp at zero, spread over the
  flattened positions.  Each of its two grid points holds the whole pooled array P(n, ci), the whole transposed weight
  Wt(ci, co) and the shift row, and writes one half of the positions:
      out3(n, co, q) = max( Σ_ci P(n, ci) · Wt(ci, co) + shift(0, co), 0 ),
  whatever arrays the region was entered with.
-/
import proofs.«160035_g2000207088411349_pallasbulk_988_20_alg».proof.Proof.Gen.ReferenceIdeal.Frame
import proofs.«160035_g2000207088411349_pallasbulk_988_20_alg».proof.Proof.LibPlainDot
import proofs.«160035_g2000207088411349_pallasbulk_988_20_alg».proof.Proof.LibLayoutRead
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem
open Idealize.ShloMosaic.ValueIdx
open Idealize.ShloMosaic.Pipeline (Dat)

namespace Cert.ReferenceIdeal.Bridge

open Cert.ReferenceIdeal Cert.ReferenceIdeal.Gen

variable (V : (c : Dev nD) → (b : Ref sig .tc) → Buf (Elt Ideal) ((c : Thread nD τ).loc b))

theorem hz3' : (![0, 0, 0] : Fin 3 → Nat) = fun _ => 0 := funext fun a => by fin_cases a <;> rfl
theorem hz2' : (![0, 0] : Fin 2 → Nat) = fun _ => 0 := funext fun a => by fin_cases a <;> rfl

theorem lt2 (t : Fin cfg1.N) : t.val < 2 := lt_of_lt_of_eq t.isLt (show cfg1.N = 2 from N_1)

/-- The body's stored value at block position (n, co, k). -/
theorem pay1_apply (x0 : Vec Ideal S8x2048 .f32) (x1 : Vec Ideal S2048x256 .f32) (x2 : Vec Ideal S1x256 .f32)
    (n : Fin 8) (co : Fin 256) (k : Fin 512) :
    k1_pay1 x0 x1 x2 (ix3 n co k)
      = max ((∑ ci : Fin 2048, x0 (ix2 n ci) * x1 (ix2 ci co)) + x2 (ix2 (0 : Fin 1) co))
          (Ideal.ofBits .f32 0x00000000#32) := by
  unfold k1_pay1
  refine (LayoutRead.broadcastTo_ab1_abc_apply _ _ n co k).trans ?_
  rw [shapeCast_self]
  refine (LayoutRead.shapeCast_ab_ab1_apply _ _ n co (0 : Fin 1)).trans ?_
  rw [maximumf_apply, addf_apply, broadcast_apply, shapeCast_self, shapeCast_self, shapeCast_self,
    broadcastTo_1b_ab_apply]
  rw [show dot_S8x2048_S2048x256_S8x256_1_0_0_1_n_n = DotDims.plain 8 2048 256 from rfl]
  simp only [matmul]
  rw [PlainDot.matmul_zero_apply]
  rfl

/-- The three arrays the region reads, as it finds them. -/
abbrev inP (c : Dev nD) : S8x2048.Idx → EReal := V c main_v15
abbrev inW (c : Dev nD) : S2048x256.Idx → EReal := V c main_v10
abbrev inS (c : Dev nD) : S1x256.Idx → EReal := V c main_v13

/-- The region's output array. -/
def bcArr (c : Dev nD) : S8x256x1024.Idx → EReal := fun i =>
  max ((∑ ci : Fin 2048, inP V c (ix2 (i 0) ci) * inW V c (ix2 ci (i 1))) + inS V c (ix2 (0 : Fin 1) (i 1)))
    (Ideal.ofBits .f32 0x00000000#32)

/-- The windows' block indices at point t: the inputs whole, the output's half t. -/
theorem idx_facts1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = 0 ∧ win1_3.index t (1 : Fin 3) = 0 ∧ win1_3.index t (2 : Fin 3) = t.val :=
  (by decide +kernel : ∀ t : Fin grid1.N, _)

theorem blk1_0_apply (c : Dev nD) (t : Fin cfg1.N) (n : Fin 8) (ci : Fin 2048) :
    (iblk1 V c 0 t : Vec Ideal S8x2048 .f32) (ix2 n ci) = inP V c (ix2 n ci) := by
  obtain ⟨e0, e1, -⟩ := idx_facts1 t
  unfold iblk1
  rw [View.read_apply]
  show V c main_v15 (((cfg1.win 0).blk t).view.emb (ix2 n ci)) = V c main_v15 _
  refine congrArg _ (funext fun d => Fin.ext ?_)
  match d with
  | ⟨0, _⟩ => show win1_0.index t (0 : Fin 2) * 8 + 1 * n.val = n.val; omega
  | ⟨1, _⟩ => show win1_0.index t (1 : Fin 2) * 2048 + 1 * ci.val = ci.val; omega

theorem blk1_1_apply (c : Dev nD) (t : Fin cfg1.N) (ci : Fin 2048) (co : Fin 256) :
    (iblk1 V c 1 t : Vec Ideal S2048x256 .f32) (ix2 ci co) = inW V c (ix2 ci co) := by
  obtain ⟨-, -, e0, e1, -⟩ := idx_facts1 t
  unfold iblk1
  rw [View.read_apply]
  show V c main_v10 (((cfg1.win 1).blk t).view.emb (ix2 ci co)) = V c main_v10 _
  refine congrArg _ (funext fun d => Fin.ext ?_)
  match d with
  | ⟨0, _⟩ => show win1_1.index t (0 : Fin 2) * 2048 + 1 * ci.val = ci.val; omega
  | ⟨1, _⟩ => show win1_1.index t (1 : Fin 2) * 256 + 1 * co.val = co.val; omega

theorem blk1_2_apply (c : Dev nD) (t : Fin cfg1.N) (u : Fin 1) (co : Fin 256) :
    (iblk1 V c 2 t : Vec Ideal S1x256 .f32) (ix2 u co) = inS V c (ix2 u co) := by
  obtain ⟨-, -, -, -, e0, e1, -⟩ := idx_facts1 t
  unfold iblk1
  rw [View.read_apply]
  show V c main_v13 (((cfg1.win 2).blk t).view.emb (ix2 u co)) = V c main_v13 _
  refine congrArg _ (funext fun d => Fin.ext ?_)
  match d with
  | ⟨0, _⟩ => show win1_2.index t (0 : Fin 2) * 1 + 1 * u.val = u.val; omega
  | ⟨1, _⟩ => show win1_2.index t (1 : Fin 2) * 256 + 1 * co.val = co.val; omega

/-- Where the output block's position (n, co, k) lies in the output array at point t: (n, co, 512·t + k). -/
theorem emb1_3 (t : Fin cfg1.N) (n : Fin 8) (co : Fin 256) (k : Fin 512) (q : Fin 1024) (hq : q.val = 512 * t.val + k.val) :
    ((cfg1.win 3).blk t).view.emb (ix3 n co k) = (ix3 n co q : S8x256x1024.Idx) := by
  obtain ⟨-, -, -, -, -, -, e0, e1, e2⟩ := idx_facts1 t
  refine funext fun d => Fin.ext ?_
  match d with
  | ⟨0, _⟩ => show win1_3.index t (0 : Fin 3) * 8 + 1 * n.val = n.val; omega
  | ⟨1, _⟩ => show win1_3.index t (1 : Fin 3) * 256 + 1 * co.val = co.val; omega
  | ⟨2, _⟩ => show win1_3.index t (2 : Fin 3) * 512 + 1 * k.val = q.val; omega

/-- What point t writes back is its block of `bcArr`. -/
theorem flushed_eq1 (c : Dev nD) (t : Fin cfg1.N) :
    (dat1 V c).flushed 3 t = ((cfg1.win 3).blk t).view.read (Elt Ideal) (bcArr V c) := by
  have h2 := lt2 t
  show (cfg1.win 3).cut (grid1.coords t) ((dat1 V c).after 3 t) = _
  rw [after1_3]
  unfold out1_3
  rw [View.canon_unit_zero hz3']
  simp only [View.ld_unit_zero (S := S8x2048) hz2', View.ld_unit_zero (S := S2048x256) hz2',
    View.ld_unit_zero (S := S1x256) hz2']
  funext j
  obtain ⟨n, co, k, rfl⟩ : ∃ (n : Fin 8) (co : Fin 256) (k : Fin 512), j = ix3 n co k := ⟨j 0, j 1, j 2, eq_ix3 j⟩
  have hk := k.isLt
  refine (pay1_apply (iblk1 V c 0 t) (iblk1 V c 1 t) (iblk1 V c 2 t) n co k).trans ?_
  rw [View.read_apply, emb1_3 t n co k ⟨512 * t.val + k.val, by omega⟩ rfl]
  show _ = bcArr V c (ix3 n co (⟨512 * t.val + k.val, by omega⟩ : Fin 1024))
  unfold bcArr
  exact congrArg₂ max (congrArg₂ (· + ·) (Finset.sum_congr rfl fun ci _ => congrArg₂ (· * ·)
    (blk1_0_apply V c t n ci) (blk1_1_apply V c t ci co)) (blk1_2_apply V c t 0 co)) rfl

/-- An index of the output array is in point t's block iff each coordinate is in the block's range on its axis. -/
theorem mem_blk3 (t : Fin cfg1.N) (i : S8x256x1024.Idx) :
    i ∈ ((cfg1.win 3).blk t).view.set ↔ ∀ a : Fin 3, win1_3.index t a * S8x256x512.size a ≤ (i a).val
      ∧ (i a).val < win1_3.index t a * S8x256x512.size a + S8x256x512.size a := by
  show i ∈ ((View.whole main_v16).slice (win1_3.rect t)).set ↔ _
  rw [View.set_slice_whole, Rect.mem_set_unit]
  exact Iff.rfl

/-- The output array after the region. -/
theorem final1 (c : Dev nD) : (dat1 V c).arrAt 3 cfg1.N = bcArr V c :=
  (dat1 V c).arrAt_eq_of_cover 3 (bcArr V c) (fun t _ => flushed_eq1 V c t) fun i => by
    have h0 : (i 0).val < 8 := (i 0).isLt
    have h1 : (i 1).val < 256 := (i 1).isLt
    have h2 : (i 2).val < 1024 := (i 2).isLt
    have hN : (i 2).val / 512 < cfg1.N := by rw [show cfg1.N = 2 from N_1]; omega
    refine ⟨⟨(i 2).val / 512, hN⟩, flush1_3 _, ?_⟩
    rw [mem_blk3]
    obtain ⟨-, -, -, -, -, -, e0, e1, e2⟩ := idx_facts1 ⟨(i 2).val / 512, hN⟩
    have e2' : win1_3.index ⟨(i 2).val / 512, hN⟩ (2 : Fin 3) = (i 2).val / 512 := e2
    intro a
    match a with
    | ⟨0, _⟩ =>
      show win1_3.index ⟨(i 2).val / 512, hN⟩ (0 : Fin 3) * 8 ≤ (i 0).val
        ∧ (i 0).val < win1_3.index ⟨(i 2).val / 512, hN⟩ (0 : Fin 3) * 8 + 8
      omega
    | ⟨1, _⟩ =>
      show win1_3.index ⟨(i 2).val / 512, hN⟩ (1 : Fin 3) * 256 ≤ (i 1).val
        ∧ (i 1).val < win1_3.index ⟨(i 2).val / 512, hN⟩ (1 : Fin 3) * 256 + 256
      omega
    | ⟨2, _⟩ =>
      show win1_3.index ⟨(i 2).val / 512, hN⟩ (2 : Fin 3) * 512 ≤ (i 2).val
        ∧ (i 2).val < win1_3.index ⟨(i 2).val / 512, hN⟩ (2 : Fin 3) * 512 + 512
      omega

end Cert.ReferenceIdeal.Bridge

end
-- ==== Proof.RRun.lean ====
/-
  The reference's run, read.  Its @main is four segments: the host operations that fold the weight and the shift and
  flatten the input's spatial axes; the region that accumulates the spatial sums; the region that contracts them with
  the weight, shifts, clamps and spreads the result over the positions; the host's closing reshape.  The buffer contents
  at each boundary compose: the second region reads the first's output array and the host's weight and shift, and
  the closing reshape reads the second's output, at (n, co, 32·a + b) for the result's (n, co, a, b).  So @main's result
  array holds  max( Σ_ci pooled(n, ci) · ((w(co, ci) · s(co)) / 1024) + shift(co), 0 )  at every (n, co, a, b).
  Every weakly fair execution ends with every unscoped buffer at the last boundary's contents (the several-regions
  launch theorem applied to the program's segments), of which this is the reading at the result and the arguments.
-/
import proofs.«160035_g2000207088411349_pallasbulk_988_20_alg».proof.Proof.RHost
import proofs.«160035_g2000207088411349_pallasbulk_988_20_alg».proof.Proof.RPool
import proofs.«160035_g2000207088411349_pallasbulk_988_20_alg».proof.Proof.RBcast

set_option maxRecDepth 16384

noncomputable section

open scoped BigOperators
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

namespace Cert.ReferenceIdeal.Bridge

open Cert.ReferenceIdeal Cert.ReferenceIdeal.Gen Cert.PoolSpec

local notation "𝕄" => MT nD τ sig Unit (Elt Ideal) ℕ (UR sig nD τ) ℕ

variable (m : (ℓ : Loc nD τ sig) → Buf (Elt Ideal) ℓ) (ρ : Dev nD → PrngReg)

/-- The folded weight and the shift, of the arguments as launched. -/
abbrev wP (c : Dev nD) : Fin 256 → Fin 2048 → EReal := weightP (aW m c) (aG m c) (aV m c)
abbrev sh (c : Dev nD) : Fin 256 → EReal := shift (aB m c) (aM m c) (aG m c) (aV m c)

/-! ## The contents at the boundaries -/

/-- The first region leaves the accumulated sums in its output array. -/
theorem V2_v15 (c : Dev nD) : (V2 m ρ c main_v15 : S8x2048.Idx → EReal) = poolArr (V1 m ρ) c :=
  (W2_arr m ρ c 1).trans (final0 (V1 m ρ) c)

/-- It leaves the host's weight and shift as they were. -/
theorem V2_v10 (c : Dev nD) : (V2 m ρ c main_v10 : S2048x256.Idx → EReal) = V1 m ρ c main_v10 :=
  W2_of_ne m ρ c main_v10 (by decide)
theorem V2_v13 (c : Dev nD) : (V2 m ρ c main_v13 : S1x256.Idx → EReal) = V1 m ρ c main_v13 :=
  W2_of_ne m ρ c main_v13 (by decide)

/-- The accumulated sums are the spatial sums of the input. -/
theorem pool_apply (c : Dev nD) (n : Fin 8) (ci : Fin 2048) :
    poolArr (V1 m ρ) c (ix2 n ci) = pooled (aX m c) n ci := by
  have h : ∀ q : Fin 1024, inArr (V1 m ρ) c (ix3 n ci q)
      = aX m c (ix4 n ci ⟨q.val / 32, by have := q.isLt; omega⟩ ⟨q.val % 32, Nat.mod_lt _ (by decide)⟩) :=
    fun q => V_v14_apply m ρ c n ci q
  unfold poolArr
  refine Eq.trans (congrArg₂ (· + ·) (congrArg₂ (· + ·) rfl (Finset.sum_congr rfl fun k _ => h _))
    (Finset.sum_congr rfl fun k _ => h _)) ?_
  exact pooled_halves (aX m c) n ci

/-- The second region's output array, entry by entry. -/
theorem bc_apply (c : Dev nD) (n : Fin 8) (co : Fin 256) (q : Fin 1024) :
    bcArr (V2 m ρ) c (ix3 n co q) = act (aX m c) (wP m c) (sh m c) n co := by
  unfold bcArr act
  refine congrArg₂ max (congrArg₂ (· + ·) (Finset.sum_congr rfl fun ci _ => congrArg₂ (· * ·) ?_ ?_) ?_) rfl
  · exact (congrFun (V2_v15 m ρ c) _).trans (pool_apply m ρ c n ci)
  · exact (congrFun (V2_v10 m ρ c) _).trans (V_v10_apply m ρ c ci co)
  · exact (congrFun (V2_v13 m ρ c) _).trans (V_v13_apply m ρ c 0 co)

/-- The second region leaves its output array at `bcArr`. -/
theorem V3_v16 (c : Dev nD) : (V3 m ρ c main_v16 : S8x256x1024.Idx → EReal) = bcArr (V2 m ρ) c :=
  (W3_arr m ρ c 3).trans (final1 (V2 m ρ) c)

/-- The closing reshape. -/
theorem W4_v17 (c : Dev nD) : (W4 m ρ c (Proc.devRef .tc main_v17) : S8x256x32x32.Idx → EReal)
    = shapeCast S8x256x32x32 (V3 m ρ c main_v16 : S8x256x1024.Idx → EReal) shapeCasts_S8x256x1024_S8x256x32x32 := by
  show StableHlo.after hostOps2 (W3 m ρ c) (Proc.devRef .tc main_v17) = _
  after_results
  rfl

/-- @main's result array at the last boundary is the specification's output array. -/
theorem W4_result (c : Dev nD) : (W4 m ρ c (Proc.devRef .tc main_v17) : S8x256x32x32.Idx → EReal)
    = out (aX m c) (wP m c) (sh m c) := by
  rw [W4_v17, V3_v16]
  funext j
  obtain ⟨n, co, a, b, rfl⟩ : ∃ (n : Fin 8) (co : Fin 256) (a b : Fin 32), j = ix4 n co a b :=
    ⟨j 0, j 1, j 2, j 3, eq_ix4 j⟩
  have ha := a.isLt
  have hb := b.isLt
  refine (shapeCast_apply _ _ (ix4 n co a b) (ix3 n co (⟨32 * a.val + b.val, by omega⟩ : Fin 1024)) (by
    rw [Shape.rowMajor_val_three, Shape.rowMajor_val_four]
    show (n.val * 256 + co.val) * 1024 + (32 * a.val + b.val) = ((n.val * 256 + co.val) * 32 + a.val) * 32 + b.val
    omega)).trans ?_
  exact bc_apply m ρ c n co _

/-! ## The run -/

-- the launch theorem's implicit arguments are found by unifying its conclusion with this one, which takes unfolding
-- plain definitions in a metavariable's type
set_option backward.isDefEq.respectTransparency.types false in
/-- Every weakly fair execution of @main terminates, nothing faulting, with every unscoped buffer at the last
    boundary's contents. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The run, read at @main's result and arguments. -/
theorem run : θ_run defs (onTc (τ := τ) (main (F := Ideal))) ⟨m, fun _ => 0, ρ⟩ (fun r => ∀ c : Dev nD,
      r.2.mem ((c.tc : Thread nD τ).loc main_v17) = out (aX m c) (wP m c) (sh m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v17 (by decide))).trans (W4_result m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

end Cert.ReferenceIdeal.Bridge

end
-- ==== Proof.lean ====
/-
  The claim.  Both programs compute, for an input x[n, ci, a, b], a 1×1 convolution weight w[co, ci] and batch-norm
  parameters γ, β, μ, σ², the pooling branch
      out(n, co, a, b) = max( Σ_ci (Σ_a' Σ_b' x(n, ci, a', b')) · W(co, ci) + (β(co) − μ(co) · s(co)), 0 ),
      s(co) = γ(co) · (σ²(co) + ε)^(-1/2),
  the kernel in one region over a channels-last view of x, with the folded weight W(co, ci) = w(co, ci) · (s(co) / 1024);
  the reference in two regions over x with its spatial axes flattened — the spatial sums accumulated over two halves
  of the positions, then the contraction — with W(co, ci) = (w(co, ci) · s(co)) / 1024.  On the extended reals the two
  weights agree (1024 is a nonzero real, so dividing by it is multiplying by its inverse, and multiplication is
  associative), sums may be regrouped and reordered freely, and everything else is the same term of the same arguments;
  no finiteness of the inputs is used.  The three frames are the generated ones; the idealization rewrote nothing.
-/
import proofs.«160035_g2000207088411349_pallasbulk_988_20_alg».proof.Defs
import proofs.«160035_g2000207088411349_pallasbulk_988_20_alg».proof.Proof.Gen.Kernel
import proofs.«160035_g2000207088411349_pallasbulk_988_20_alg».proof.Proof.Gen.Kernel.Frame
import proofs.«160035_g2000207088411349_pallasbulk_988_20_alg».proof.Proof.Gen.KernelIdeal
import proofs.«160035_g2000207088411349_pallasbulk_988_20_alg».proof.Proof.Gen.KernelIdeal.Frame
import proofs.«160035_g2000207088411349_pallasbulk_988_20_alg».proof.Proof.Gen.ReferenceIdeal
import proofs.«160035_g2000207088411349_pallasbulk_988_20_alg».proof.Proof.Gen.ReferenceIdeal.Frame
import proofs.«160035_g2000207088411349_pallasbulk_988_20_alg».proof.Proof.Gen.Pre_finite_inputs
import proofs.«160035_g2000207088411349_pallasbulk_988_20_alg».proof.Proof.KValue
import proofs.«160035_g2000207088411349_pallasbulk_988_20_alg».proof.Proof.RRun
import Idealize.ShloMosaic.Adequacy
import Idealize.ShloMosaic.Init

noncomputable section

namespace Cert.Proof

open Idealize.ShloMosaic Idealize.SL.Sem Cert.PoolSpec

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The ideal pass rewrote no operation. -/
theorem preserves : Cert.preserves_Kernel_KernelIdeal := trivial

/-- From memories agreeing on the arguments both programs end with the specification's output array of those
    arguments: the kernel's with the quotient taken on the scale, the reference's with it taken on the product, which
    are one weight. -/
theorem algebraic : Cert.algebraic_KernelIdeal_ReferenceIdeal := by
  intro m ρ m' ρ' _ hagree
  refine ⟨fun c => out (Cert.KernelIdeal.Bridge.aX m c) (Cert.KernelIdeal.Bridge.wQ m c) (Cert.KernelIdeal.Bridge.sh m c),
    Cert.KernelIdeal.Bridge.run m ρ, ?_⟩
  refine (θ_run Cert.ReferenceIdeal.defs _ _).mono (fun _ h c => ⟨(h c).1.trans ?_, (h c).2⟩)
    (Cert.ReferenceIdeal.Bridge.run m' ρ')
  have hx : Cert.ReferenceIdeal.Bridge.aX m' c = Cert.KernelIdeal.Bridge.aX m c := (hagree c).1
  have hw : Cert.ReferenceIdeal.Bridge.aW m' c = Cert.KernelIdeal.Bridge.aW m c := (hagree c).2.1
  have hg : Cert.ReferenceIdeal.Bridge.aG m' c = Cert.KernelIdeal.Bridge.aG m c := (hagree c).2.2.1
  have hb : Cert.ReferenceIdeal.Bridge.aB m' c = Cert.KernelIdeal.Bridge.aB m c := (hagree c).2.2.2.1
  have hm : Cert.ReferenceIdeal.Bridge.aM m' c = Cert.KernelIdeal.Bridge.aM m c := (hagree c).2.2.2.2.1
  have hv : Cert.ReferenceIdeal.Bridge.aV m' c = Cert.KernelIdeal.Bridge.aV m c := (hagree c).2.2.2.2.2
  show out (Cert.ReferenceIdeal.Bridge.aX m' c)
      (weightP (Cert.ReferenceIdeal.Bridge.aW m' c) (Cert.ReferenceIdeal.Bridge.aG m' c) (Cert.ReferenceIdeal.Bridge.aV m' c))
      (shift (Cert.ReferenceIdeal.Bridge.aB m' c) (Cert.ReferenceIdeal.Bridge.aM m' c) (Cert.ReferenceIdeal.Bridge.aG m' c)
        (Cert.ReferenceIdeal.Bridge.aV m' c))
    = out (Cert.KernelIdeal.Bridge.aX m c)
      (weightQ (Cert.KernelIdeal.Bridge.aW m c) (Cert.KernelIdeal.Bridge.aG m c) (Cert.KernelIdeal.Bridge.aV m c))
      (shift (Cert.KernelIdeal.Bridge.aB m c) (Cert.KernelIdeal.Bridge.aM m c) (Cert.KernelIdeal.Bridge.aG m c)
        (Cert.KernelIdeal.Bridge.aV m c))
  rw [hx, hw, hg, hb, hm, hv]
  exact congrArg (fun W => out (Cert.KernelIdeal.Bridge.aX m c) W
      (shift (Cert.KernelIdeal.Bridge.aB m c) (Cert.KernelIdeal.Bridge.aM m c) (Cert.KernelIdeal.Bridge.aG m c)
        (Cert.KernelIdeal.Bridge.aV m c)))
    (funext fun co => funext fun ci => (weightQ_eq_weightP _ _ _ co ci).symm)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
